-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x64x256x64 : Shape := ⟨5, ![4, 8, 64, 256, 64]⟩
abbrev S4x1x64x256x256 : Shape := ⟨5, ![4, 1, 64, 256, 256]⟩
abbrev S_ : Shape := ⟨0, ![]⟩

class Facts : Prop where
  bcast_S_S4x8x64x256x64 : S_.BroadcastsInDim S4x8x64x256x64 (![] : Fin 0 → Fin S4x8x64x256x64.rank)
  reducesTo_S4x8x64x256x64_S_d0_1_2_3_4 : S4x8x64x256x64.ReducesTo [0, 1, 2, 3, 4] S_
  h_S_ : 0 < S_.numel

variable [Facts]

def fn {F : FTy → Type} [FloatOps F] (main_arg0 : FVec F S4x8x64x256x64 .f32) (main_arg1 : FVec F S4x8x64x256x64 .f32) (main_arg2 : FVec F S4x8x64x256x64 .f32) (main_arg3 : IVec S4x1x64x256x256 32) : IVec S_ 1 :=
  let main_v0 : FVec F S4x8x64x256x64 .f32 := Host.absf main_arg0
  let main_cst : FVec F S_ .f32 := constant S_ .f32 0x7F800000#32
  let main_v1 : FVec F S4x8x64x256x64 .f32 := broadcastInDim S4x8x64x256x64 ![] bcast_S_S4x8x64x256x64 main_cst
  let main_v2 : IVec S4x8x64x256x64 1 := cmpf .olt main_v0 main_v1
  let main_c : IVec S_ 1 := constantI S_ 1 1#1
  let main_v3 : IVec S_ 1 := (fun x v => Host.reduce IntOp.andi x v reducesTo_S4x8x64x256x64_S_d0_1_2_3_4 h_S_) main_v2 main_c
  let main_v4 : FVec F S4x8x64x256x64 .f32 := Host.absf main_arg1
  let main_cst_0 : FVec F S_ .f32 := constant S_ .f32 0x7F800000#32
  let main_v5 : FVec F S4x8x64x256x64 .f32 := broadcastInDim S4x8x64x256x64 ![] bcast_S_S4x8x64x256x64 main_cst_0
  let main_v6 : IVec S4x8x64x256x64 1 := cmpf .olt main_v4 main_v5
  let main_c_1 : IVec S_ 1 := constantI S_ 1 1#1
  let main_v7 : IVec S_ 1 := (fun x v => Host.reduce IntOp.andi x v reducesTo_S4x8x64x256x64_S_d0_1_2_3_4 h_S_) main_v6 main_c_1
  let main_v8 : IVec S_ 1 := andi main_v3 main_v7
  let main_v9 : FVec F S4x8x64x256x64 .f32 := Host.absf main_arg2
  let main_cst_2 : FVec F S_ .f32 := constant S_ .f32 0x7F800000#32
  let main_v10 : FVec F S4x8x64x256x64 .f32 := broadcastInDim S4x8x64x256x64 ![] bcast_S_S4x8x64x256x64 main_cst_2
  let main_v11 : IVec S4x8x64x256x64 1 := cmpf .olt main_v9 main_v10
  let main_c_3 : IVec S_ 1 := constantI S_ 1 1#1
  let main_v12 : IVec S_ 1 := (fun x v => Host.reduce IntOp.andi x v reducesTo_S4x8x64x256x64_S_d0_1_2_3_4 h_S_) main_v11 main_c_3
  let main_v13 : IVec S_ 1 := andi main_v8 main_v12
  main_v13
-- ==== Kernel.lean ====
abbrev S4x8x64x256x64 : Shape := ⟨5, ![4, 8, 64, 256, 64]⟩
abbrev S4x1x64x256x256 : Shape := ⟨5, ![4, 1, 64, 256, 256]⟩
abbrev S4x8x64x256x256 : Shape := ⟨5, ![4, 8, 64, 256, 256]⟩
abbrev S1x1x8x256x64 : Shape := ⟨5, ![1, 1, 8, 256, 64]⟩
abbrev S1x1x8x256x256 : Shape := ⟨5, ![1, 1, 8, 256, 256]⟩
abbrev S8x256x64 : Shape := ⟨3, ![8, 256, 64]⟩
abbrev S8x256x256 : Shape := ⟨3, ![8, 256, 256]⟩
abbrev S8x256 : Shape := ⟨2, ![8, 256]⟩
abbrev S8x256x1 : Shape := ⟨3, ![8, 256, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x8x64x256x64, .f32⟩
  | .hbm, ⟨1, _⟩ => ⟨S4x8x64x256x64, .f32⟩
  | .hbm, ⟨2, _⟩ => ⟨S4x8x64x256x64, .f32⟩
  | .hbm, ⟨3, _⟩ => ⟨S4x1x64x256x256, .i32⟩
  | .hbm, ⟨4, _⟩ => ⟨S4x8x64x256x64, .f32⟩
  | .hbm, ⟨5, _⟩ => ⟨S4x8x64x256x256, .f32⟩
  | .local _ .vmem, ⟨0, _⟩ => ⟨S1x1x8x256x64, .f32⟩
  | .local _ .vmem, ⟨1, _⟩ => ⟨S1x1x8x256x64, .f32⟩
  | .local _ .vmem, ⟨2, _⟩ => ⟨S1x1x8x256x64, .f32⟩
  | .local _ .vmem, ⟨3, _⟩ => ⟨S1x1x8x256x64, .f32⟩
  | .local _ .vmem, ⟨4, _⟩ => ⟨S1x1x8x256x64, .f32⟩
  | .local _ .vmem, ⟨5, _⟩ => ⟨S1x1x8x256x64, .f32⟩
  | .local _ .vmem, ⟨6, _⟩ => ⟨S1x1x8x256x256, .i32⟩
  | .local _ .vmem, ⟨7, _⟩ => ⟨S1x1x8x256x256, .i32⟩
  | .local _ .vmem, ⟨8, _⟩ => ⟨S1x1x8x256x64, .f32⟩
  | .local _ .vmem, ⟨9, _⟩ => ⟨S1x1x8x256x64, .f32⟩
  | .local _ .vmem, ⟨10, _⟩ => ⟨S1x1x8x256x256, .f32⟩
  | .local _ .vmem, ⟨11, _⟩ => ⟨S1x1x8x256x256, .f32⟩
  | _, _ => ⟨S4x8x64x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

abbrev stage0_0 : Fin 2 → Memref sig .tc .vmem S1x1x8x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x8x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x8x256x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x8x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x8x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x8x256x64_S1x1x8x256x64_0_0_0_0_0 : ∀ a, (![0, 0, 0, 0, 0] : Fin 5 → Nat) a + S1x1x8x256x64.size a ≤ S1x1x8x256x64.size a
  h_S1x1x8x256x64 : 0 < S1x1x8x256x64.numel
  shapeCasts_S1x1x8x256x64_S8x256x64 : S1x1x8x256x64.ShapeCasts S8x256x64
  bitsLt_bf16_f32 : FTy.bits .bf16 < FTy.bits .f32
  inb_S1x1x8x256x256_S1x1x8x256x256_0_0_0_0_0 : ∀ a, (![0, 0, 0, 0, 0] : Fin 5 → Nat) a + S1x1x8x256x256.size a ≤ S1x1x8x256x256.size a
  h_S1x1x8x256x256 : 0 < S1x1x8x256x256.numel
  shapeCasts_S1x1x8x256x256_S8x256x256 : S1x1x8x256x256.ShapeCasts S8x256x256
  reduces_S8x256x256_S8x256 : S8x256x256.Reduces [2] S8x256
  shapeCasts_S8x256_S8x256x1 : S8x256.ShapeCasts S8x256x1
  broadcasts_S8x256x1_S8x256x256 : S8x256x1.Broadcasts S8x256x256
  shapeCasts_S8x256x256_S1x1x8x256x256 : S8x256x256.ShapeCasts S1x1x8x256x256
  shapeCasts_S8x256x64_S1x1x8x256x64 : S8x256x64.ShapeCasts S1x1x8x256x64
  dot_S8x256x64_S8x256x64_S8x256x256_2_2_1_1_0_0_wf : DotDims.WF S8x256x64 S8x256x64 S8x256x256 [2] [2] [1] [1] [0] [0]
  dot_S8x256x256_S8x256x64_S8x256x64_2_1_1_2_0_0_wf : DotDims.WF S8x256x256 S8x256x64 S8x256x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x8x256x64.size a ≤ S4x8x64x256x64.size a
  hwx0_0 : ∀ i : grid0.Coords, EltTy.bits .f32 = 32 ∨ (Rect.block (s := S4x8x64x256x64) S1x1x8x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8x256x64.size a ≤ S4x8x64x256x64.size a
  hwx0_1 : ∀ i : grid0.Coords, EltTy.bits .f32 = 32 ∨ (Rect.block (s := S4x8x64x256x64) S1x1x8x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8x256x64.size a ≤ S4x8x64x256x64.size a
  hwx0_2 : ∀ i : grid0.Coords, EltTy.bits .f32 = 32 ∨ (Rect.block (s := S4x8x64x256x64) S1x1x8x256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8x256x256.size a ≤ S4x1x64x256x256.size a
  hwx0_3 : ∀ i : grid0.Coords, EltTy.bits .i32 = 32 ∨ (Rect.block (s := S4x1x64x256x256) S1x1x8x256x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x8x256x64.size a ≤ S4x8x64x256x64.size a
  hwx0_4 : ∀ i : grid0.Coords, EltTy.bits .f32 = 32 ∨ (Rect.block (s := S4x8x64x256x64) S1x1x8x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x8x256x256.size a ≤ S4x8x64x256x256.size a
  hwx0_5 : ∀ i : grid0.Coords, EltTy.bits .f32 = 32 ∨ (Rect.block (s := S4x8x64x256x256) S1x1x8x256x256.size (cc0_transform_5 i) (hinb0_5 i)).WholeWords (EltTy.packing .f32)

variable [Facts₀]

def dot_S8x256x64_S8x256x64_S8x256x256_2_2_1_1_0_0 : DotDims S8x256x64 S8x256x64 S8x256x256 where
  lhsContracting := [2]
  rhsContracting := [2]
  lhsNonContracting := [1]
  rhsNonContracting := [1]
  lhsBatch := [0]
  rhsBatch := [0]
  wf := dot_S8x256x64_S8x256x64_S8x256x256_2_2_1_1_0_0_wf
def dot_S8x256x256_S8x256x64_S8x256x64_2_1_1_2_0_0 : DotDims S8x256x256 S8x256x64 S8x256x64 where
  lhsContracting := [2]
  rhsContracting := [1]
  lhsNonContracting := [1]
  rhsNonContracting := [2]
  lhsBatch := [0]
  rhsBatch := [0]
  wf := dot_S8x256x256_S8x256x64_S8x256x64_2_1_1_2_0_0_wf

abbrev win0_0 : Pipeline.Window sig grid0 :=
  Pipeline.Window.ofSpec (Memref.whole main_arg0) S1x1x8x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x8x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x8x256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x8x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x8x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x8x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x8x64x256x64 : Shape := ⟨5, ![4, 8, 64, 256, 64]⟩
abbrev S4x1x64x256x256 : Shape := ⟨5, ![4, 1, 64, 256, 256]⟩
abbrev S_ : Shape := ⟨0, ![]⟩
abbrev S4x8x64x256x256 : Shape := ⟨5, ![4, 8, 64, 256, 256]⟩
abbrev S4x8x64x256 : Shape := ⟨4, ![4, 8, 64, 256]⟩
abbrev S4x8x64x256x1 : Shape := ⟨5, ![4, 8, 64, 256, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x8x64x256x64, .f32⟩
  | .hbm, ⟨1, _⟩ => ⟨S4x8x64x256x64, .f32⟩
  | .hbm, ⟨2, _⟩ => ⟨S4x8x64x256x64, .f32⟩
  | .hbm, ⟨3, _⟩ => ⟨S4x1x64x256x256, .i32⟩
  | .hbm, ⟨4, _⟩ => ⟨S_, .f32⟩
  | .hbm, ⟨5, _⟩ => ⟨S4x8x64x256x64, .f32⟩
  | .hbm, ⟨6, _⟩ => ⟨S4x8x64x256x64, .f32⟩
  | .hbm, ⟨7, _⟩ => ⟨S4x8x64x256x256, .f32⟩
  | .hbm, ⟨8, _⟩ => ⟨S_, .i32⟩
  | .hbm, ⟨9, _⟩ => ⟨S4x1x64x256x256, .i32⟩
  | .hbm, ⟨10, _⟩ => ⟨S4x1x64x256x256, .i1⟩
  | .hbm, ⟨11, _⟩ => ⟨S_, .f32⟩
  | .hbm, ⟨12, _⟩ => ⟨S_, .f32⟩
  | .hbm, ⟨13, _⟩ => ⟨S4x8x64x256x256, .i1⟩
  | .hbm, ⟨14, _⟩ => ⟨S4x8x64x256x256, .f32⟩
  | .hbm, ⟨15, _⟩ => ⟨S4x8x64x256x256, .f32⟩
  | .hbm, ⟨16, _⟩ => ⟨S_, .f32⟩
  | .hbm, ⟨17, _⟩ => ⟨S4x8x64x256, .f32⟩
  | .hbm, ⟨18, _⟩ => ⟨S_, .f32⟩
  | .hbm, ⟨19, _⟩ => ⟨S4x8x64x256, .f32⟩
  | .hbm, ⟨20, _⟩ => ⟨S4x8x64x256, .f32⟩
  | .hbm, ⟨21, _⟩ => ⟨S4x8x64x256x1, .f32⟩
  | .hbm, ⟨22, _⟩ => ⟨S4x8x64x256x256, .f32⟩
  | .hbm, ⟨23, _⟩ => ⟨S4x8x64x256x256, .f32⟩
  | .hbm, ⟨24, _⟩ => ⟨S4x8x64x256x256, .f32⟩
  | .hbm, ⟨25, _⟩ => ⟨S_, .f32⟩
  | .hbm, ⟨26, _⟩ => ⟨S4x8x64x256, .f32⟩
  | .hbm, ⟨27, _⟩ => ⟨S4x8x64x256x1, .f32⟩
  | .hbm, ⟨28, _⟩ => ⟨S4x8x64x256x256, .f32⟩
  | .hbm, ⟨29, _⟩ => ⟨S4x8x64x256x256, .f32⟩
  | .hbm, ⟨30, _⟩ => ⟨S4x8x64x256x64, .f32⟩
  | _, _ => ⟨S4x8x64x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S_S4x8x64x256x64 : S_.BroadcastsInDim S4x8x64x256x64 (![] : Fin 0 → Fin S4x8x64x256x64.rank)
  bcast_S_S4x1x64x256x256 : S_.BroadcastsInDim S4x1x64x256x256 (![] : Fin 0 → Fin S4x1x64x256x256.rank)
  bcast_S4x1x64x256x256_S4x8x64x256x256_0_1_2_3_4 : S4x1x64x256x256.BroadcastsInDim S4x8x64x256x256 (![0, 1, 2, 3, 4] : Fin 5 → Fin S4x8x64x256x256.rank)
  bcast_S_S4x8x64x256x256 : S_.BroadcastsInDim S4x8x64x256x256 (![] : Fin 0 → Fin S4x8x64x256x256.rank)
  reducesTo_S4x8x64x256x256_S4x8x64x256_d4 : S4x8x64x256x256.ReducesTo [4] S4x8x64x256
  h_S_ : 0 < S_.numel
  bcast_S_S4x8x64x256 : S_.BroadcastsInDim S4x8x64x256 (![] : Fin 0 → Fin S4x8x64x256.rank)
  bcast_S4x8x64x256_S4x8x64x256x1_0_1_2_3 : S4x8x64x256.BroadcastsInDim S4x8x64x256x1 (![0, 1, 2, 3] : Fin 4 → Fin S4x8x64x256x1.rank)
  bcast_S4x8x64x256x1_S4x8x64x256x256_0_1_2_3_4 : S4x8x64x256x1.BroadcastsInDim S4x8x64x256x256 (![0, 1, 2, 3, 4] : Fin 5 → Fin S4x8x64x256x256.rank)
  dot_S4x8x64x256x64_S4x8x64x256x64_S4x8x64x256x256_4_4_3_3_012_012_wf : DotDims.WF S4x8x64x256x64 S4x8x64x256x64 S4x8x64x256x256 [4] [4] [3] [3] [0, 1, 2] [0, 1, 2]
  dot_S4x8x64x256x256_S4x8x64x256x64_S4x8x64x256x64_4_3_3_4_012_012_wf : DotDims.WF S4x8x64x256x256 S4x8x64x256x64 S4x8x64x256x64 [4] [3] [3] [4] [0, 1, 2] [0, 1, 2]

variable [Facts₀]

def dot_S4x8x64x256x64_S4x8x64x256x64_S4x8x64x256x256_4_4_3_3_012_012 : DotDims S4x8x64x256x64 S4x8x64x256x64 S4x8x64x256x256 where
  lhsContracting := [4]
  rhsContracting := [4]
  lhsNonContracting := [3]
  rhsNonContracting := [3]
  lhsBatch := [0, 1, 2]
  rhsBatch := [0, 1, 2]
  wf := dot_S4x8x64x256x64_S4x8x64x256x64_S4x8x64x256x256_4_4_3_3_012_012_wf
def dot_S4x8x64x256x256_S4x8x64x256x64_S4x8x64x256x64_4_3_3_4_012_012 : DotDims S4x8x64x256x256 S4x8x64x256x64 S4x8x64x256x64 where
  lhsContracting := [4]
  rhsContracting := [3]
  lhsNonContracting := [3]
  rhsNonContracting := [4]
  lhsBatch := [0, 1, 2]
  rhsBatch := [0, 1, 2]
  wf := dot_S4x8x64x256x256_S4x8x64x256x64_S4x8x64x256x64_4_3_3_4_012_012_wf

class Facts : Prop extends Facts₀ where

variable [Facts]
-- ==== Proof.AttentionSpec.lean ====
/-
  Masked scaled dot-product attention over one key/query tile, as a function on the extended reals.

  A slice (b, h, t) holds 256 queries and 256 keys of width 64.  The score of query e against key f is the inner product
  of their rows, scaled by 1/8; where the mask entry (b, 0, t, e, f) is 0 the score is replaced by a large negative
  fill.  A row of scores is turned into weights by the shifted softmax  exp (s f − m) / Σ_k exp (s k − m)  with m the
  row's maximum, and the output row is the weighted sum of the value rows.

  The two programs compared differ in ONE place: the first scales the inner product, (Σ_d q_d · k_d) · (1/8); the second
  divides the queries first, Σ_d (q_d / 8) · k_d.  For real q, k these agree (a real factor moves across a finite sum);
  that is the only law of this file that needs finiteness.
-/
import Idealize.ShloMosaic.PureOps.Ideal
import Idealize.ShloMosaic.Lib.ValueIdx

noncomputable section

namespace Cert.Attention

open Idealize.ShloMosaic Idealize.ShloMosaic.ValueIdx

/-- The shape of the queries, keys, values and of the output. -/
abbrev SQ : Shape := ⟨5, ![4, 8, 64, 256, 64]⟩
/-- The shape of the mask: one mask per (b, t), shared by the 8 heads. -/
abbrev SM : Shape := ⟨5, ![4, 1, 64, 256, 256]⟩
/-- The shape of the attention weights. -/
abbrev SA : Shape := ⟨5, ![4, 8, 64, 256, 256]⟩

/-! ## The constants -/

/-- The binary32 word of `8.0` denotes the real 8. -/
theorem ofBits_eight : Ideal.ofBits .f32 0x41000000#32 = ((8 : ℝ) : EReal) := by
  simp [Ideal.ofBits, Ideal.ieee, -EReal.coe_mul]; norm_num

/-- The binary32 word of `0.125` denotes the real 1/8. -/
theorem ofBits_eighth : Ideal.ofBits .f32 0x3E000000#32 = ((1 / 8 : ℝ) : EReal) := by
  simp [Ideal.ofBits, Ideal.ieee, -EReal.coe_mul]; norm_num

/-- The binary32 word of `+0.0` denotes 0. -/
theorem ofBits_zero : Ideal.ofBits .f32 0x00000000#32 = 0 := by
  simp [Ideal.ofBits, Ideal.ieee]

/-- The binary32 word of `−∞` denotes `⊥`. -/
theorem ofBits_neg_inf : Ideal.ofBits .f32 0xFF800000#32 = (⊥ : EReal) := by
  simp [Ideal.ofBits, Ideal.ieee]

/-! ## One row of scores to one row of weights -/

/-- The shifted softmax weight of entry `f` of a row of scores: `exp (s f − m) / Σ_k exp (s k − m)`, `m` the fold of
    `max` from `⊥` over the row. -/
def weight {N : ℕ} (s : Fin N → EReal) (f : Fin N) : EReal :=
  Ideal.div (Ideal.exp (s f - (Finset.univ : Finset (Fin N)).fold max ⊥ s))
    (∑ k : Fin N, Ideal.exp (s k - (Finset.univ : Finset (Fin N)).fold max ⊥ s))

/-- A score under its mask entry: the fill where the mask entry is 0, the score elsewhere. -/
def masked (mk : BitVec 32) (x : EReal) : EReal :=
  Scalar.select (IntOp.cmpi .eq mk 0#32) (Ideal.ofBits .f32 0xF149F2CA#32) x

/-- The inner product of a query row and a key row, scaled AFTER the sum by the word of 1/8. -/
def dotScaled (q k : Fin 64 → EReal) : EReal :=
  (∑ d : Fin 64, q d * k d) * Ideal.ofBits .f32 0x3E000000#32

/-- The inner product with each query entry divided by the word of 8 BEFORE the sum. -/
def dotDivided (q k : Fin 64 → EReal) : EReal :=
  ∑ d : Fin 64, Ideal.div (q d) (Ideal.ofBits .f32 0x41000000#32) * k d

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real rows the two inner products agree: `(Σ_d q_d · k_d) / 8 = Σ_d (q_d / 8) · k_d`. -/
theorem dotScaled_eq_dotDivided (q k : Fin 64 → EReal) (hq : ∀ d, ∃ r : ℝ, q d = (r : EReal))
    (hk : ∀ d, ∃ r : ℝ, k d = (r : EReal)) : dotScaled q k = dotDivided q k := by
  choose q' hq' using hq
  choose k' hk' using hk
  unfold dotScaled dotDivided
  rw [ofBits_eighth, ofBits_eight]
  simp only [hq', hk', Ideal.div_coe (by norm_num : (8 : ℝ) ≠ 0), ← EReal.coe_mul, ← coe_sum]
  rw [Finset.sum_mul]
  congr 1
  exact Finset.sum_congr rfl fun d _ => by ring

/-! ## The two results, entry by entry -/

/-- The row of masked scores of query `e` of slice `(b, h, t)` against every key. -/
def scoreRow (Q K : SQ.Idx → EReal) (Mk : SM.Idx → BitVec 32) (b : Fin 4) (h : Fin 8) (t : Fin 64) (e : Fin 256) :
    Fin 256 → EReal := fun f =>
  masked (Mk (ix5 b (0 : Fin 1) t e f)) (dotScaled (fun d => Q (ix5 b h t e d)) (fun d => K (ix5 b h t f d)))

/-- The attention weight of query `e` on key `f` in slice `(b, h, t)`. -/
def attnAt (Q K : SQ.Idx → EReal) (Mk : SM.Idx → BitVec 32) (b : Fin 4) (h : Fin 8) (t : Fin 64) (e f : Fin 256) : EReal :=
  weight (scoreRow Q K Mk b h t e) f

/-- The output entry `d` of query `e` in slice `(b, h, t)`: the weights against column `d` of the values. -/
def outAt (Q K V : SQ.Idx → EReal) (Mk : SM.Idx → BitVec 32) (b : Fin 4) (h : Fin 8) (t : Fin 64) (e : Fin 256)
    (d : Fin 64) : EReal :=
  ∑ f : Fin 256, attnAt Q K Mk b h t e f * V (ix5 b h t f d)

/-- The attention weights as one array. -/
def attn (Q K : SQ.Idx → EReal) (Mk : SM.Idx → BitVec 32) : SA.Idx → EReal := fun i =>
  attnAt Q K Mk (i 0) (i 1) (i 2) (i 3) (i 4)

/-- The output as one array. -/
def out (Q K V : SQ.Idx → EReal) (Mk : SM.Idx → BitVec 32) : SQ.Idx → EReal := fun i =>
  outAt Q K V Mk (i 0) (i 1) (i 2) (i 3) (i 4)

end Cert.Attention

end
-- ==== Proof.LibBatchDot.lean ====
/-
  Matrix products with a leading batch axis, read at an entry, on the extended reals.

  `[B, M, K] × [B, K, N] → [B, M, N]` (one product per batch coordinate) and `[B, M, K] × [K, N] → [B, M, N]` (one right
  operand shared by every batch coordinate): the kernel's matrix unit into the zero accumulator and the host's
  `dot_general` are both the sum over the dimension record's contraction index of the operands' products, and when the
  record's operand indices are the expected ones — stated as facts about the record, which each use proves by evaluating
  its record — that sum re-indexes to `Σ j, lhs (b, m, j) · rhs (b, j, n)`, respectively `Σ j, lhs (b, m, j) · rhs (j, n)`.
-/
import Idealize.ShloMosaic.Lib.ValueIdx
import Idealize.ShloMosaic.PureOps.Ideal.Laws

noncomputable section

namespace Idealize.ShloMosaic.BatchDot

open Idealize.ShloMosaic Idealize.ShloMosaic.ValueIdx

variable {B M K N : ℕ} {φ₁ φ₂ : FTy}

/-- The contraction sum of a batched product at entry `(b, m, n)`, re-indexed by the contracted coordinate. -/
theorem sum_eq (D : DotDims ⟨3, ![B, M, K]⟩ ⟨3, ![B, K, N]⟩ ⟨3, ![B, M, N]⟩)
    (hr : D.contr.rank = 1) (hs : D.contr.size ⟨0, by omega⟩ = K)
    (hl0 : ∀ i q, (D.lhsIdx i q 0).val = (i 0).val)
    (hl1 : ∀ i q, (D.lhsIdx i q 1).val = (i 1).val)
    (hl2 : ∀ i q, (D.lhsIdx i q 2).val = (q ⟨0, by omega⟩).val)
    (hr0 : ∀ i q, (D.rhsIdx i q 0).val = (i 0).val)
    (hr1 : ∀ i q, (D.rhsIdx i q 1).val = (q ⟨0, by omega⟩).val)
    (hr2 : ∀ i q, (D.rhsIdx i q 2).val = (i 2).val)
    (lhs : FVec Ideal ⟨3, ![B, M, K]⟩ φ₁) (rhs : FVec Ideal ⟨3, ![B, K, N]⟩ φ₂) (b : Fin B) (m : Fin M) (n : Fin N) :
    ∑ q : D.contr.Idx, lhs (D.lhsIdx (ix3 b m n) q) * rhs (D.rhsIdx (ix3 b m n) q)
      = ∑ j : Fin K, lhs (ix3 b m j) * rhs (ix3 b j n) := by
  rw [← Equiv.sum_comp (contrEquiv1 D K hr hs).symm]
  refine Finset.sum_congr rfl fun j _ => ?_
  have hk := contrEquiv1_symm_val D K hr hs j
  have el : D.lhsIdx (ix3 b m n) ((contrEquiv1 D K hr hs).symm j) = ix3 b m j := funext fun ax => Fin.ext (by
    match ax with
    | ⟨0, _⟩ => exact hl0 _ _
    | ⟨1, _⟩ => exact hl1 _ _
    | ⟨2, _⟩ => exact (hl2 _ _).trans hk)
  have er : D.rhsIdx (ix3 b m n) ((contrEquiv1 D K hr hs).symm j) = ix3 b j n := funext fun ax => Fin.ext (by
    match ax with
    | ⟨0, _⟩ => exact hr0 _ _
    | ⟨1, _⟩ => exact (hr1 _ _).trans hk
    | ⟨2, _⟩ => exact hr2 _ _)
  rw [el, er]

/-- The matrix unit into the zero accumulator, batched, at entry `(b, m, n)`. -/
theorem matmul_zero_apply (D : DotDims ⟨3, ![B, M, K]⟩ ⟨3, ![B, K, N]⟩ ⟨3, ![B, M, N]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (i 1).val)
    (hl2 : ∀ i q, (D.lhsIdx i q 2).val = (q ⟨0, by omega⟩).val)
    (hr0 : ∀ i q, (D.rhsIdx i q 0).val = (i 0).val)
    (hr1 : ∀ i q, (D.rhsIdx i q 1).val = (q ⟨0, by omega⟩).val)
    (hr2 : ∀ i q, (D.rhsIdx i q 2).val = (i 2).val)
    (lhs : FVec Ideal ⟨3, ![B, M, K]⟩ φ₁) (rhs : FVec Ideal ⟨3, ![B, K, N]⟩ φ₂) (b : Fin B) (m : Fin M) (n : Fin N) :
    matmul D prec lhs rhs (constant (F := Ideal) ⟨3, ![B, M, N]⟩ .f32 0x00000000#32) (ix3 b m n)
      = ∑ j : Fin K, lhs (ix3 b m j) * rhs (ix3 b j n) :=
  (Ideal.matmul_constant_zero_apply D prec lhs rhs (ix3 b m n)).trans (sum_eq D hr hs hl0 hl1 hl2 hr0 hr1 hr2 lhs rhs b m n)

/-- The host's batched `dot_general`, at entry `(b, m, n)`. -/
theorem dotGeneral_apply (D : DotDims ⟨3, ![B, M, K]⟩ ⟨3, ![B, K, N]⟩ ⟨3, ![B, M, N]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (i 1).val)
    (hl2 : ∀ i q, (D.lhsIdx i q 2).val = (q ⟨0, by omega⟩).val)
    (hr0 : ∀ i q, (D.rhsIdx i q 0).val = (i 0).val)
    (hr1 : ∀ i q, (D.rhsIdx i q 1).val = (q ⟨0, by omega⟩).val)
    (hr2 : ∀ i q, (D.rhsIdx i q 2).val = (i 2).val)
    (lhs : FVec Ideal ⟨3, ![B, M, K]⟩ φ₁) (rhs : FVec Ideal ⟨3, ![B, K, N]⟩ φ₂) (b : Fin B) (m : Fin M) (n : Fin N) :
    Host.dotGeneral D prec lhs rhs (ix3 b m n) = ∑ j : Fin K, lhs (ix3 b m j) * rhs (ix3 b j n) :=
  (Ideal.dotGeneral_apply D prec .single lhs rhs (ix3 b m n)).trans (sum_eq D hr hs hl0 hl1 hl2 hr0 hr1 hr2 lhs rhs b m n)

/-- The contraction sum of `[B, M, K] × [K, N]` at entry `(b, m, n)`, re-indexed by the contracted coordinate. -/
theorem sumShared_eq (D : DotDims ⟨3, ![B, M, K]⟩ ⟨2, ![K, N]⟩ ⟨3, ![B, M, N]⟩)
    (hr : D.contr.rank = 1) (hs : D.contr.size ⟨0, by omega⟩ = K)
    (hl0 : ∀ i q, (D.lhsIdx i q 0).val = (i 0).val)
    (hl1 : ∀ i q, (D.lhsIdx i q 1).val = (i 1).val)
    (hl2 : ∀ i q, (D.lhsIdx i q 2).val = (q ⟨0, by omega⟩).val)
    (hr0 : ∀ i q, (D.rhsIdx i q 0).val = (q ⟨0, by omega⟩).val)
    (hr1 : ∀ i q, (D.rhsIdx i q 1).val = (i 2).val)
    (lhs : FVec Ideal ⟨3, ![B, M, K]⟩ φ₁) (rhs : FVec Ideal ⟨2, ![K, N]⟩ φ₂) (b : Fin B) (m : Fin M) (n : Fin N) :
    ∑ q : D.contr.Idx, lhs (D.lhsIdx (ix3 b m n) q) * rhs (D.rhsIdx (ix3 b m n) q)
      = ∑ j : Fin K, lhs (ix3 b m j) * rhs (ix2 j n) := by
  rw [← Equiv.sum_comp (contrEquiv1 D K hr hs).symm]
  refine Finset.sum_congr rfl fun j _ => ?_
  have hk := contrEquiv1_symm_val D K hr hs j
  have el : D.lhsIdx (ix3 b m n) ((contrEquiv1 D K hr hs).symm j) = ix3 b m j := funext fun ax => Fin.ext (by
    match ax with
    | ⟨0, _⟩ => exact hl0 _ _
    | ⟨1, _⟩ => exact hl1 _ _
    | ⟨2, _⟩ => exact (hl2 _ _).trans hk)
  have er : D.rhsIdx (ix3 b m n) ((contrEquiv1 D K hr hs).symm j) = ix2 j n := funext fun ax => Fin.ext (by
    match ax with
    | ⟨0, _⟩ => exact (hr0 _ _).trans hk
    | ⟨1, _⟩ => exact hr1 _ _)
  rw [el, er]

/-- The host's `dot_general` of a batched left operand with one shared right operand, at entry `(b, m, n)`. -/
theorem dotGeneralShared_apply (D : DotDims ⟨3, ![B, M, K]⟩ ⟨2, ![K, N]⟩ ⟨3, ![B, M, N]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (i 1).val)
    (hl2 : ∀ i q, (D.lhsIdx i q 2).val = (q ⟨0, by omega⟩).val)
    (hr0 : ∀ i q, (D.rhsIdx i q 0).val = (q ⟨0, by omega⟩).val)
    (hr1 : ∀ i q, (D.rhsIdx i q 1).val = (i 2).val)
    (lhs : FVec Ideal ⟨3, ![B, M, K]⟩ φ₁) (rhs : FVec Ideal ⟨2, ![K, N]⟩ φ₂) (b : Fin B) (m : Fin M) (n : Fin N) :
    Host.dotGeneral D prec lhs rhs (ix3 b m n) = ∑ j : Fin K, lhs (ix3 b m j) * rhs (ix2 j n) :=
  (Ideal.dotGeneral_apply D prec .single lhs rhs (ix3 b m n)).trans (sumShared_eq D hr hs hl0 hl1 hl2 hr0 hr1 lhs rhs b m n)

/-! ## A maximum along one axis of a rank-3 array -/

/-- The binary32 word of `−∞` denotes `⊥`. -/
theorem ofBits_neg_inf : Ideal.ofBits .f32 0xFF800000#32 = (⊥ : EReal) := by
  simp [Ideal.ofBits, Ideal.ieee]

/-- The lane maximum of a `[B, M, N]` array over its LAST axis from the accumulator `−∞`, at `(b, m)`, is the fold of
    `max` from `⊥` over that lane's entries. -/
theorem laneMax_apply (v : FVec Ideal ⟨3, ![B, M, N]⟩ .f32) (h : (⟨3, ![B, M, N]⟩ : Shape).Reduces [2] ⟨2, ![B, M]⟩)
    (hacc : (0xFF800000#32 : BitVec 32) = FKind.maximumf.neutral .f32 (.inl rfl)) (b : Fin B) (m : Fin M) :
    multiReduction .maximumf [2] ⟨2, ![B, M]⟩ v 0xFF800000#32 h (.inl rfl) hacc (ix2 b m)
      = (Finset.univ : Finset (Fin N)).fold max ⊥ (fun k => v (ix3 b m k)) := by
  refine (Ideal.multiReduction_maximumf_single v 0xFF800000#32 h (.inl rfl) hacc (ix2 b m)).trans ?_
  rw [show (FloatOps.ofBits (F := Ideal) .f32 0xFF800000#32 : EReal) = ⊥ from ofBits_neg_inf]
  refine congrArg (fun f => (Finset.univ : Finset (Fin N)).fold max ⊥ f) (funext fun k => ?_)
  exact congrArg v (funext fun ax => Fin.ext (by
    match ax with
    | ⟨0, _⟩ => rfl
    | ⟨1, _⟩ => rfl
    | ⟨2, _⟩ => rfl))

/-- The host's maximum of a `[B, M, N]` array over its MIDDLE axis from an initial value, at `(b, n)`, is the fold of
    `max` from that value over the middle coordinates. -/
theorem hostMidMax_apply {u : Shape} (x : FVec Ideal ⟨3, ![B, M, N]⟩ .f32) (init : u.Idx → EReal)
    (h' : (⟨3, ![B, M, N]⟩ : Shape).ReducesTo [1] ⟨2, ![B, N]⟩) (h : (⟨3, ![B, M, N]⟩ : Shape).Reduces [1] ⟨2, ![B, N]⟩)
    (hu : 0 < u.numel) (b : Fin B) (n : Fin N) :
    Host.reduce (FloatOps.maximumf (F := Ideal) (φ := .f32)) x init h' hu (ix2 b n)
      = (Finset.univ : Finset (Fin M)).fold max (init (Shape.Idx.first hu)) (fun k => x (ix3 b k n)) := by
  refine (Host.reduce_eq_fold_single (FloatOps.maximumf (F := Ideal) (φ := .f32)) x init h' h hu (ix2 b n)).trans ?_
  refine congrArg (fun f => (Finset.univ : Finset (Fin M)).fold max (init (Shape.Idx.first hu)) f) (funext fun k => ?_)
  exact congrArg x (funext fun ax => Fin.ext (by
    match ax with
    | ⟨0, _⟩ => rfl
    | ⟨1, _⟩ => rfl
    | ⟨2, _⟩ => rfl))

end Idealize.ShloMosaic.BatchDot

end
-- ==== Proof.LibKeepdims3.lean ====
/-
  Reading the "keep the reduced axis as a unit axis" operations of a rank-3 array at an index.

  A sum over the LAST axis of an `[a, b, c]` array kept as `[a, b, 1]`, and a sum over its MIDDLE axis kept as
  `[a, 1, c]`, are each met as three operations: the reduction to the rank-2 array, the cast that inserts the unit
  axis, and later a broadcast of the result back to `[a, b, c]`.  Each lemma reads one of them at an index built
  from coordinates.
-/
import Idealize.ShloMosaic.Lib.Pipeline.Value
import Idealize.ShloMosaic.Lib.ValueIdx
import Idealize.ShloMosaic.PureOps.Ideal.Laws

noncomputable section

namespace Idealize.ShloMosaic.Keepdims3

open Idealize.ShloMosaic Idealize.ShloMosaic.ValueIdx

variable {α : Type} {a b c : ℕ}

/-- The sum of an `[a, b, c]` array over its last axis into the zero accumulator, at `(p, q)`, is the sum of that
    lane's entries. -/
theorem lastSum_apply (v : FVec Ideal ⟨3, ![a, b, c]⟩ .f32) (h : (⟨3, ![a, b, c]⟩ : Shape).Reduces [2] ⟨2, ![a, b]⟩)
    (hacc : (0x00000000#32 : BitVec 32) = 0x00000000#32) (p : Fin a) (q : Fin b) :
    multiReduction .add [2] ⟨2, ![a, b]⟩ v 0x00000000#32 h (.inl rfl) hacc (ix2 p q) = ∑ k : Fin c, v (ix3 p q k) :=
  (Ideal.multiReduction_add_single v 0x00000000#32 h (.inl rfl) hacc (ix2 p q)).trans
    (Finset.sum_congr rfl fun k _ => congrArg v (funext fun ax => Fin.ext (by
      match ax with
      | ⟨0, _⟩ => rfl
      | ⟨1, _⟩ => rfl
      | ⟨2, _⟩ => rfl)))

/-- The sum of an `[a, b, c]` array over its middle axis into the zero accumulator, at `(p, r)`, is the sum over the
    middle coordinate. -/
theorem midSum_apply (v : FVec Ideal ⟨3, ![a, b, c]⟩ .f32) (h : (⟨3, ![a, b, c]⟩ : Shape).Reduces [1] ⟨2, ![a, c]⟩)
    (hacc : (0x00000000#32 : BitVec 32) = 0x00000000#32) (p : Fin a) (r : Fin c) :
    multiReduction .add [1] ⟨2, ![a, c]⟩ v 0x00000000#32 h (.inl rfl) hacc (ix2 p r) = ∑ k : Fin b, v (ix3 p k r) :=
  (Ideal.multiReduction_add_single v 0x00000000#32 h (.inl rfl) hacc (ix2 p r)).trans
    (Finset.sum_congr rfl fun k _ => congrArg v (funext fun ax => Fin.ext (by
      match ax with
      | ⟨0, _⟩ => rfl
      | ⟨1, _⟩ => rfl
      | ⟨2, _⟩ => rfl)))

/-- An `[a, b]` array cast to `[a, b, 1]` reads, at `(p, q, u)`, the operand at `(p, q)`. -/
theorem shapeCast_ab_ab1_apply (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, c]` array cast to `[a, 1, c]` reads, at `(p, u, r)`, the operand at `(p, r)`. -/
theorem shapeCast_ac_a1c_apply (x : (⟨2, ![a, c]⟩ : Shape).Idx → α) (h : (⟨2, ![a, c]⟩ : Shape).ShapeCasts ⟨3, ![a, 1, c]⟩)
    (p : Fin a) (u : Fin 1) (r : Fin c) : shapeCast ⟨3, ![a, 1, c]⟩ x h (ix3 p u r) = x (ix2 p r) :=
  shapeCast_apply x h _ _ (by
    have hu : u.val = 0 := by omega
    rw [Shape.rowMajor_val_two, Shape.rowMajor_val_three]
    show p.val * c + r.val = (p.val * 1 + u.val) * c + r.val
    rw [hu, Nat.mul_one, Nat.add_zero])

/-- An `[a, b, 1]` array broadcast over `c` lanes reads, at `(p, q, r)`, the operand at `(p, q, 0)`. -/
theorem broadcastTo_ab1_abc_apply (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, 1, c]` array broadcast over `b` rows reads, at `(p, q, r)`, the operand at `(p, 0, r)`. -/
theorem broadcastTo_a1c_abc_apply (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

end Idealize.ShloMosaic.Keepdims3

end
-- ==== Proof.SoftmaxLane.lean ====
/-
  The shifted softmax along the last axis of a rank-3 array, as a vector program, read at an entry.

  The program takes the lane maximum (from −∞), keeps it as a unit axis, broadcasts it back, subtracts, exponentiates,
  sums the lane (from 0), keeps and broadcasts the sum the same way, and divides.  At entry `(b, m, n)` this is the weight
  `exp (s n − max s) / Σ_k exp (s k − max s)` of the row `s = v (b, m, ·)`.
-/
import proofs.«170571_j12558484374015_2_alg».proof.Proof.AttentionSpec
import proofs.«170571_j12558484374015_2_alg».proof.Proof.LibBatchDot
import proofs.«170571_j12558484374015_2_alg».proof.Proof.LibKeepdims3

noncomputable section

namespace Cert.Attention

open Idealize.ShloMosaic Idealize.ShloMosaic.ValueIdx

variable {B M N : ℕ}

/-- The row maximum, kept as a unit axis and broadcast back over the lane, read at `(b, m, k)`. -/
theorem laneMaxBack_apply (v : FVec Ideal ⟨3, ![B, M, N]⟩ .f32)
    (hred : (⟨3, ![B, M, N]⟩ : Shape).Reduces [2] ⟨2, ![B, M]⟩)
    (hcast : (⟨2, ![B, M]⟩ : Shape).ShapeCasts ⟨3, ![B, M, 1]⟩)
    (hbc : (⟨3, ![B, M, 1]⟩ : Shape).Broadcasts ⟨3, ![B, M, N]⟩)
    (haccM : (0xFF800000#32 : BitVec 32) = FKind.maximumf.neutral .f32 (.inl rfl))
    (b : Fin B) (m : Fin M) (k : Fin N) :
    broadcastTo ⟨3, ![B, M, N]⟩ (shapeCast ⟨3, ![B, M, 1]⟩
        (multiReduction .maximumf [2] ⟨2, ![B, M]⟩ v 0xFF800000#32 hred (.inl rfl) haccM) hcast) hbc (ix3 b m k)
      = (Finset.univ : Finset (Fin N)).fold max ⊥ (fun j => v (ix3 b m j)) :=
  (Keepdims3.broadcastTo_ab1_abc_apply _ hbc b m k).trans
    ((Keepdims3.shapeCast_ab_ab1_apply _ hcast b m 0).trans (BatchDot.laneMax_apply v hred haccM b m))

/-- The whole chain at entry `(b, m, n)` is the softmax weight of the row. -/
theorem softmaxLane_apply (v : FVec Ideal ⟨3, ![B, M, N]⟩ .f32)
    (hred : (⟨3, ![B, M, N]⟩ : Shape).Reduces [2] ⟨2, ![B, M]⟩)
    (hcast : (⟨2, ![B, M]⟩ : Shape).ShapeCasts ⟨3, ![B, M, 1]⟩)
    (hbc : (⟨3, ![B, M, 1]⟩ : Shape).Broadcasts ⟨3, ![B, M, N]⟩)
    (haccM : (0xFF800000#32 : BitVec 32) = FKind.maximumf.neutral .f32 (.inl rfl))
    (haccA : (0x00000000#32 : BitVec 32) = 0x00000000#32)
    (b : Fin B) (m : Fin M) (n : Fin N) :
    divf
      (exp (subf v (broadcastTo ⟨3, ![B, M, N]⟩ (shapeCast ⟨3, ![B, M, 1]⟩
        (multiReduction .maximumf [2] ⟨2, ![B, M]⟩ v 0xFF800000#32 hred (.inl rfl) haccM) hcast) hbc)))
      (broadcastTo ⟨3, ![B, M, N]⟩ (shapeCast ⟨3, ![B, M, 1]⟩
        (multiReduction .add [2] ⟨2, ![B, M]⟩
          (exp (subf v (broadcastTo ⟨3, ![B, M, N]⟩ (shapeCast ⟨3, ![B, M, 1]⟩
            (multiReduction .maximumf [2] ⟨2, ![B, M]⟩ v 0xFF800000#32 hred (.inl rfl) haccM) hcast) hbc)))
          0x00000000#32 hred (.inl rfl) haccA) hcast) hbc)
      (ix3 b m n)
      = weight (fun k => v (ix3 b m k)) n := by
  have hmax := laneMaxBack_apply v hred hcast hbc haccM b m
  unfold weight
  refine congrArg₂ Ideal.div ?_ ?_
  · show Ideal.exp (v (ix3 b m n) - _) = _
    rw [hmax n]
  · refine (Keepdims3.broadcastTo_ab1_abc_apply _ hbc b m n).trans ?_
    refine (Keepdims3.shapeCast_ab_ab1_apply _ hcast b m 0).trans ?_
    refine (Keepdims3.lastSum_apply _ hred haccA b m).trans ?_
    refine Finset.sum_congr rfl fun k _ => ?_
    show Ideal.exp (v (ix3 b m k) - _) = _
    rw [hmax k]

end Cert.Attention

end
-- ==== Proof.LibBatchDotT.lean ====
/-
  A batched matrix product whose two operands are BOTH contracted along their last axis, read at an entry, on the
  extended reals.

  `[B, M, K] × [B, N, K] → [B, M, N]` (per batch coordinate, the left operand times the transpose of the right): the
  matrix unit into the zero accumulator is the sum over the dimension record's contraction index of the operands'
  products, and when the record's operand indices are the expected ones — stated as facts about the record, which each
  use proves by evaluating its record — that sum re-indexes to `Σ j, lhs (b, m, j) · rhs (b, n, j)`.
-/
import Idealize.ShloMosaic.Lib.ValueIdx
import Idealize.ShloMosaic.PureOps.Ideal.Laws

noncomputable section

namespace Idealize.ShloMosaic.BatchDotT

open Idealize.ShloMosaic Idealize.ShloMosaic.ValueIdx

variable {B M K N : ℕ} {φ₁ φ₂ : FTy}

/-- The contraction sum at entry `(b, m, n)`, re-indexed by the contracted (last) coordinate of both operands. -/
theorem sum_eq (D : DotDims ⟨3, ![B, M, K]⟩ ⟨3, ![B, N, K]⟩ ⟨3, ![B, M, N]⟩)
    (hr : D.contr.rank = 1) (hs : D.contr.size ⟨0, by omega⟩ = K)
    (hl0 : ∀ i q, (D.lhsIdx i q 0).val = (i 0).val)
    (hl1 : ∀ i q, (D.lhsIdx i q 1).val = (i 1).val)
    (hl2 : ∀ i q, (D.lhsIdx i q 2).val = (q ⟨0, by omega⟩).val)
    (hr0 : ∀ i q, (D.rhsIdx i q 0).val = (i 0).val)
    (hr1 : ∀ i q, (D.rhsIdx i q 1).val = (i 2).val)
    (hr2 : ∀ i q, (D.rhsIdx i q 2).val = (q ⟨0, by omega⟩).val)
    (lhs : FVec Ideal ⟨3, ![B, M, K]⟩ φ₁) (rhs : FVec Ideal ⟨3, ![B, N, K]⟩ φ₂) (b : Fin B) (m : Fin M) (n : Fin N) :
    ∑ q : D.contr.Idx, lhs (D.lhsIdx (ix3 b m n) q) * rhs (D.rhsIdx (ix3 b m n) q)
      = ∑ j : Fin K, lhs (ix3 b m j) * rhs (ix3 b n j) := by
  rw [← Equiv.sum_comp (contrEquiv1 D K hr hs).symm]
  refine Finset.sum_congr rfl fun j _ => ?_
  have hk := contrEquiv1_symm_val D K hr hs j
  have el : D.lhsIdx (ix3 b m n) ((contrEquiv1 D K hr hs).symm j) = ix3 b m j := funext fun ax => Fin.ext (by
    match ax with
    | ⟨0, _⟩ => exact hl0 _ _
    | ⟨1, _⟩ => exact hl1 _ _
    | ⟨2, _⟩ => exact (hl2 _ _).trans hk)
  have er : D.rhsIdx (ix3 b m n) ((contrEquiv1 D K hr hs).symm j) = ix3 b n j := funext fun ax => Fin.ext (by
    match ax with
    | ⟨0, _⟩ => exact hr0 _ _
    | ⟨1, _⟩ => exact hr1 _ _
    | ⟨2, _⟩ => exact (hr2 _ _).trans hk)
  rw [el, er]

/-- The matrix unit into the zero accumulator, both operands contracted along their last axis, at entry `(b, m, n)`. -/
theorem matmul_zero_apply (D : DotDims ⟨3, ![B, M, K]⟩ ⟨3, ![B, N, K]⟩ ⟨3, ![B, M, N]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (i 1).val)
    (hl2 : ∀ i q, (D.lhsIdx i q 2).val = (q ⟨0, by omega⟩).val)
    (hr0 : ∀ i q, (D.rhsIdx i q 0).val = (i 0).val)
    (hr1 : ∀ i q, (D.rhsIdx i q 1).val = (i 2).val)
    (hr2 : ∀ i q, (D.rhsIdx i q 2).val = (q ⟨0, by omega⟩).val)
    (lhs : FVec Ideal ⟨3, ![B, M, K]⟩ φ₁) (rhs : FVec Ideal ⟨3, ![B, N, K]⟩ φ₂) (b : Fin B) (m : Fin M) (n : Fin N) :
    matmul D prec lhs rhs (constant (F := Ideal) ⟨3, ![B, M, N]⟩ .f32 0x00000000#32) (ix3 b m n)
      = ∑ j : Fin K, lhs (ix3 b m j) * rhs (ix3 b n j) :=
  (Ideal.matmul_constant_zero_apply D prec lhs rhs (ix3 b m n)).trans (sum_eq D hr hs hl0 hl1 hl2 hr0 hr1 hr2 lhs rhs b m n)

end Idealize.ShloMosaic.BatchDotT

end
-- ==== Proof.LibUnitLead.lean ====
/-
  Casts that add or drop two leading unit axes of a rank-3 array, read at an index.

  A block of shape `[1, 1, a, b, c]` and the rank-3 array `[a, b, c]` hold the same entries in the same row-major
  order, so the cast in either direction reads entry `(p, q, r)` of one at `(0, 0, p, q, r)` of the other.
-/
import Idealize.ShloMosaic.Lib.Pipeline.Value
import Idealize.ShloMosaic.Lib.ValueIdx

noncomputable section

namespace Idealize.ShloMosaic.UnitLead

open Idealize.ShloMosaic Idealize.ShloMosaic.ValueIdx

variable {α : Type} {a b c : ℕ}

/-- Both row-major positions: the two leading unit coordinates contribute nothing. -/
theorem rowMajor_eq (u v : Fin 1) (p : Fin a) (q : Fin b) (r : Fin c) :
    ((⟨5, ![1, 1, a, b, c]⟩ : Shape).rowMajor (ix5 u v p q r)).val = ((⟨3, ![a, b, c]⟩ : Shape).rowMajor (ix3 p q r)).val := by
  have hu : u.val = 0 := by omega
  have hv : v.val = 0 := by omega
  rw [Shape.rowMajor_val_five, Shape.rowMajor_val_three]
  show (((u.val * 1 + v.val) * a + p.val) * b + q.val) * c + r.val = (p.val * b + q.val) * c + r.val
  simp only [hu, hv, Nat.zero_mul, Nat.zero_add]

/-- A `[1, 1, a, b, c]` array cast to `[a, b, c]` reads, at `(p, q, r)`, the operand at `(0, 0, p, q, r)`. -/
theorem drop_apply (x : (⟨5, ![1, 1, a, b, c]⟩ : Shape).Idx → α)
    (h : (⟨5, ![1, 1, a, b, c]⟩ : Shape).ShapeCasts ⟨3, ![a, b, c]⟩) (p : Fin a) (q : Fin b) (r : Fin c) :
    shapeCast ⟨3, ![a, b, c]⟩ x h (ix3 p q r) = x (ix5 (0 : Fin 1) (0 : Fin 1) p q r) :=
  shapeCast_apply x h _ _ (rowMajor_eq 0 0 p q r)

/-- An `[a, b, c]` array cast to `[1, 1, a, b, c]` reads, at `(u, v, p, q, r)`, the operand at `(p, q, r)`. -/
theorem add_apply (x : (⟨3, ![a, b, c]⟩ : Shape).Idx → α)
    (h : (⟨3, ![a, b, c]⟩ : Shape).ShapeCasts ⟨5, ![1, 1, a, b, c]⟩) (u v : Fin 1) (p : Fin a) (q : Fin b) (r : Fin c) :
    shapeCast ⟨5, ![1, 1, a, b, c]⟩ x h (ix5 u v p q r) = x (ix3 p q r) :=
  shapeCast_apply x h _ _ (rowMajor_eq u v p q r).symm

end Idealize.ShloMosaic.UnitLead

end
-- ==== Proof.KernelBlock.lean ====
/-
  What the kernel body computes from one point's blocks, entry by entry, on the extended reals.

  A point's blocks are a `[1, 1, 8, 256, 64]` tile of queries, keys and values (8 slices `t`) and a
  `[1, 1, 8, 256, 256]` tile of the mask.  The body drops the two unit axes, forms for each slice the 256 × 256 scores
  `(Σ_d q(t,e,d) · k(t,f,d)) · (1/8)`, replaces masked scores by the fill, turns each row into softmax weights, and
  multiplies the weights into the values: `Σ_f w(t,e,f) · v(t,f,d)`.
-/
import proofs.«170571_j12558484374015_2_alg».proof.Proof.Gen.KernelIdeal.Skeleton
import proofs.«170571_j12558484374015_2_alg».proof.Proof.SoftmaxLane
import proofs.«170571_j12558484374015_2_alg».proof.Proof.LibBatchDotT
import proofs.«170571_j12558484374015_2_alg».proof.Proof.LibBatchDot
import proofs.«170571_j12558484374015_2_alg».proof.Proof.LibUnitLead

noncomputable section

namespace Cert.KernelIdeal.Block

open Cert.KernelIdeal Cert.KernelIdeal.Gen Idealize.ShloMosaic Idealize.ShloMosaic.ValueIdx Cert.Attention

/-! ## The operand indices of the two matrix products

The first product contracts the last axis of both operands (queries against keys); the second contracts the last axis of
the weights against the middle axis of the values.  Axis 0 (the slice) is a batch axis of both. -/

theorem qk_l0 (i : S8x256x256.Idx) (q : dot_S8x256x64_S8x256x64_S8x256x256_2_2_1_1_0_0.contr.Idx) :
    (dot_S8x256x64_S8x256x64_S8x256x256_2_2_1_1_0_0.lhsIdx i q 0).val = (i 0).val := by
  unfold DotDims.lhsIdx
  rw [dif_pos (show (0 : Fin S8x256x64.rank) ∈ dot_S8x256x64_S8x256x64_S8x256x256_2_2_1_1_0_0.lhsBatch by decide)]
  rfl
theorem qk_l1 (i : S8x256x256.Idx) (q : dot_S8x256x64_S8x256x64_S8x256x256_2_2_1_1_0_0.contr.Idx) :
    (dot_S8x256x64_S8x256x64_S8x256x256_2_2_1_1_0_0.lhsIdx i q 1).val = (i 1).val := by
  unfold DotDims.lhsIdx
  rw [dif_neg (show ¬(1 : Fin S8x256x64.rank) ∈ dot_S8x256x64_S8x256x64_S8x256x256_2_2_1_1_0_0.lhsBatch by decide), dif_pos (show (1 : Fin S8x256x64.rank) ∈ dot_S8x256x64_S8x256x64_S8x256x256_2_2_1_1_0_0.lhsNonContracting by decide)]
  rfl
theorem qk_l2 (i : S8x256x256.Idx) (q : dot_S8x256x64_S8x256x64_S8x256x256_2_2_1_1_0_0.contr.Idx) :
    (dot_S8x256x64_S8x256x64_S8x256x256_2_2_1_1_0_0.lhsIdx i q 2).val = (q ⟨0, by decide⟩).val :=
  dot_S8x256x64_S8x256x64_S8x256x256_2_2_1_1_0_0.lhsIdx_val_of_single rfl i q
theorem qk_r0 (i : S8x256x256.Idx) (q : dot_S8x256x64_S8x256x64_S8x256x256_2_2_1_1_0_0.contr.Idx) :
    (dot_S8x256x64_S8x256x64_S8x256x256_2_2_1_1_0_0.rhsIdx i q 0).val = (i 0).val := by
  unfold DotDims.rhsIdx
  rw [dif_pos (show (0 : Fin S8x256x64.rank) ∈ dot_S8x256x64_S8x256x64_S8x256x256_2_2_1_1_0_0.rhsBatch by decide)]
  rfl
theorem qk_r1 (i : S8x256x256.Idx) (q : dot_S8x256x64_S8x256x64_S8x256x256_2_2_1_1_0_0.contr.Idx) :
    (dot_S8x256x64_S8x256x64_S8x256x256_2_2_1_1_0_0.rhsIdx i q 1).val = (i 2).val := by
  unfold DotDims.rhsIdx
  rw [dif_neg (show ¬(1 : Fin S8x256x64.rank) ∈ dot_S8x256x64_S8x256x64_S8x256x256_2_2_1_1_0_0.rhsBatch by decide), dif_pos (show (1 : Fin S8x256x64.rank) ∈ dot_S8x256x64_S8x256x64_S8x256x256_2_2_1_1_0_0.rhsNonContracting by decide)]
  rfl
theorem qk_r2 (i : S8x256x256.Idx) (q : dot_S8x256x64_S8x256x64_S8x256x256_2_2_1_1_0_0.contr.Idx) :
    (dot_S8x256x64_S8x256x64_S8x256x256_2_2_1_1_0_0.rhsIdx i q 2).val = (q ⟨0, by decide⟩).val :=
  dot_S8x256x64_S8x256x64_S8x256x256_2_2_1_1_0_0.rhsIdx_val_of_single rfl i q

theorem wv_l0 (i : S8x256x64.Idx) (q : dot_S8x256x256_S8x256x64_S8x256x64_2_1_1_2_0_0.contr.Idx) :
    (dot_S8x256x256_S8x256x64_S8x256x64_2_1_1_2_0_0.lhsIdx i q 0).val = (i 0).val := by
  unfold DotDims.lhsIdx
  rw [dif_pos (show (0 : Fin S8x256x256.rank) ∈ dot_S8x256x256_S8x256x64_S8x256x64_2_1_1_2_0_0.lhsBatch by decide)]
  rfl
theorem wv_l1 (i : S8x256x64.Idx) (q : dot_S8x256x256_S8x256x64_S8x256x64_2_1_1_2_0_0.contr.Idx) :
    (dot_S8x256x256_S8x256x64_S8x256x64_2_1_1_2_0_0.lhsIdx i q 1).val = (i 1).val := by
  unfold DotDims.lhsIdx
  rw [dif_neg (show ¬(1 : Fin S8x256x256.rank) ∈ dot_S8x256x256_S8x256x64_S8x256x64_2_1_1_2_0_0.lhsBatch by decide), dif_pos (show (1 : Fin S8x256x256.rank) ∈ dot_S8x256x256_S8x256x64_S8x256x64_2_1_1_2_0_0.lhsNonContracting by decide)]
  rfl
theorem wv_l2 (i : S8x256x64.Idx) (q : dot_S8x256x256_S8x256x64_S8x256x64_2_1_1_2_0_0.contr.Idx) :
    (dot_S8x256x256_S8x256x64_S8x256x64_2_1_1_2_0_0.lhsIdx i q 2).val = (q ⟨0, by decide⟩).val :=
  dot_S8x256x256_S8x256x64_S8x256x64_2_1_1_2_0_0.lhsIdx_val_of_single rfl i q
theorem wv_r0 (i : S8x256x64.Idx) (q : dot_S8x256x256_S8x256x64_S8x256x64_2_1_1_2_0_0.contr.Idx) :
    (dot_S8x256x256_S8x256x64_S8x256x64_2_1_1_2_0_0.rhsIdx i q 0).val = (i 0).val := by
  unfold DotDims.rhsIdx
  rw [dif_pos (show (0 : Fin S8x256x64.rank) ∈ dot_S8x256x256_S8x256x64_S8x256x64_2_1_1_2_0_0.rhsBatch by decide)]
  rfl
theorem wv_r1 (i : S8x256x64.Idx) (q : dot_S8x256x256_S8x256x64_S8x256x64_2_1_1_2_0_0.contr.Idx) :
    (dot_S8x256x256_S8x256x64_S8x256x64_2_1_1_2_0_0.rhsIdx i q 1).val = (q ⟨0, by decide⟩).val :=
  dot_S8x256x256_S8x256x64_S8x256x64_2_1_1_2_0_0.rhsIdx_val_of_single rfl i q
theorem wv_r2 (i : S8x256x64.Idx) (q : dot_S8x256x256_S8x256x64_S8x256x64_2_1_1_2_0_0.contr.Idx) :
    (dot_S8x256x256_S8x256x64_S8x256x64_2_1_1_2_0_0.rhsIdx i q 2).val = (i 2).val := by
  unfold DotDims.rhsIdx
  rw [dif_neg (show ¬(2 : Fin S8x256x64.rank) ∈ dot_S8x256x256_S8x256x64_S8x256x64_2_1_1_2_0_0.rhsBatch by decide), dif_pos (show (2 : Fin S8x256x64.rank) ∈ dot_S8x256x256_S8x256x64_S8x256x64_2_1_1_2_0_0.rhsNonContracting by decide)]
  rfl

/-! ## The masked scores -/

/-- The masked, scaled score of query `e` against key `f` in slice `t`. -/
theorem scores_apply (v2 v5 : FVec Ideal S8x256x64 .bf16) (v13 : IVec S8x256x256 32) (t : Fin 8) (e f : Fin 256) :
    (select (cmpi .eq v13 (broadcast S8x256x256 0#32)) (broadcast S8x256x256 (Scalar.ofBits (F := Ideal) .f32 0xF149F2CA#32))
      (mulf (matmul dot_S8x256x64_S8x256x64_S8x256x256_2_2_1_1_0_0 none v2 v5 (constant S8x256x256 .f32 0x00000000#32))
        (broadcast S8x256x256 (Scalar.ofBits (F := Ideal) .f32 0x3E000000#32)))) (ix3 t e f)
      = masked (v13 (ix3 t e f)) (dotScaled (fun d => v2 (ix3 t e d)) (fun d => v5 (ix3 t f d))) := by
  unfold masked dotScaled
  show Scalar.select (IntOp.cmpi .eq (v13 (ix3 t e f)) 0#32) _
    (matmul dot_S8x256x64_S8x256x64_S8x256x256_2_2_1_1_0_0 none v2 v5 (constant (F := Ideal) S8x256x256 .f32 0x00000000#32) (ix3 t e f) * _) = _
  rw [BatchDotT.matmul_zero_apply dot_S8x256x64_S8x256x64_S8x256x256_2_2_1_1_0_0 none rfl rfl qk_l0 qk_l1 qk_l2 qk_r0 qk_r1 qk_r2 v2 v5 t e f]
  rfl

/-! ## The weights -/

/-- The body's weights at `(t, e, f)`, from the point's query, key and mask blocks. -/
theorem pay4_apply (P0 P1 : Vec Ideal S1x1x8x256x64 .f32) (P2 : Vec Ideal S1x1x8x256x256 .i32) (t : Fin 8) (e f : Fin 256) :
    k0_pay4 (F := Ideal) P0 P1 P2 (ix3 t e f)
      = weight (fun f' => masked (P2 (ix5 (0 : Fin 1) (0 : Fin 1) t e f'))
          (dotScaled (fun d => P0 (ix5 (0 : Fin 1) (0 : Fin 1) t e d)) (fun d => P1 (ix5 (0 : Fin 1) (0 : Fin 1) t f' d)))) f := by
  unfold k0_pay4
  refine (softmaxLane_apply _ _ _ _ _ _ t e f).trans ?_
  refine congrArg (fun s => weight s f) (funext fun f' => ?_)
  refine (scores_apply _ _ _ t e f').trans ?_
  refine congrArg₂ masked (UnitLead.drop_apply P2 _ t e f') (congrArg₂ dotScaled (funext fun d => ?_) (funext fun d => ?_))
  · exact UnitLead.drop_apply P0 _ t e d
  · exact UnitLead.drop_apply P1 _ t f' d

/-! ## The output -/

/-- The values with the unit axes dropped. -/
theorem pay3_apply (v6 : Vec Ideal S1x1x8x256x64 .f32) (t : Fin 8) (f : Fin 256) (d : Fin 64) :
    k0_pay3 (F := Ideal) v6 (ix3 t f d) = v6 (ix5 (0 : Fin 1) (0 : Fin 1) t f d) := by
  unfold k0_pay3
  exact UnitLead.drop_apply v6 _ t f d

/-- The weights times the values, with the unit axes put back. -/
theorem pay2_apply (v8 : FVec Ideal S8x256x64 .bf16) (v26 : FVec Ideal S8x256x256 .f32) (u w : Fin 1) (t : Fin 8)
    (e : Fin 256) (d : Fin 64) :
    k0_pay2 (F := Ideal) v8 v26 (ix5 u w t e d) = ∑ f : Fin 256, v26 (ix3 t e f) * v8 (ix3 t f d) := by
  unfold k0_pay2
  refine (UnitLead.add_apply _ _ u w t e d).trans ?_
  exact BatchDot.matmul_zero_apply dot_S8x256x256_S8x256x64_S8x256x64_2_1_1_2_0_0 none rfl rfl wv_l0 wv_l1 wv_l2 wv_r0 wv_r1 wv_r2 _ v8 t e d

/-- The weights with the unit axes put back. -/
theorem pay1_apply (v26 : FVec Ideal S8x256x256 .f32) (u w : Fin 1) (t : Fin 8) (e f : Fin 256) :
    k0_pay1 (F := Ideal) v26 (ix5 u w t e f) = v26 (ix3 t e f) := by
  unfold k0_pay1
  exact UnitLead.add_apply _ _ u w t e f

end Cert.KernelIdeal.Block

end
-- ==== Proof.KernelArray.lean ====
/-
  From the blocks the grid points write back to the two whole result arrays of the kernel.

  The grid has 4 × 8 × 8 points `(b, T, h)`.  Point `(b, T, h)` stages the `[1, 1, 8, 256, ·]` blocks at block index
  `(b, h, T, 0, 0)` of the queries, keys, values, output and weights, and the mask block at `(b, 0, T, 0, 0)`, so entry
  `(0, 0, tt, e, ·)` of a block is entry `(b, h, 8 T + tt, e, ·)` of its array (head `0` for the mask).  What the body
  leaves in the two output blocks is therefore the restriction of the specification's weights and output to the point's
  block, and the 256 blocks tile both arrays.
-/
import proofs.«170571_j12558484374015_2_alg».proof.Proof.Gen.KernelIdeal.Value
import proofs.«170571_j12558484374015_2_alg».proof.Proof.KernelBlock

noncomputable section

namespace Cert.KernelIdeal.Arr

open Cert.KernelIdeal Cert.KernelIdeal.Gen Idealize.ShloMosaic Idealize.ShloMosaic.TcCoe Idealize.SL.Sem
  Idealize.ShloMosaic.ValueIdx Cert.Attention
open Idealize.ShloMosaic.Pipeline (Dat)

/-! ## One point's output blocks from its input blocks -/

theorem hz : (![0, 0, 0, 0, 0] : Fin 5 → Nat) = fun _ => 0 := funext fun a => by fin_cases a <;> rfl

/-- The row of masked scores of query `e` of slice `tt`, read off a point's query, key and mask blocks. -/
def blockRow (x0 x1 : Vec Ideal S1x1x8x256x64 .f32) (x3 : Vec Ideal S1x1x8x256x256 .i32) (tt : Fin 8) (e : Fin 256) :
    Fin 256 → EReal := fun f' =>
  masked (x3 (ix5 (0 : Fin 1) (0 : Fin 1) tt e f'))
    (dotScaled (fun d => x0 (ix5 (0 : Fin 1) (0 : Fin 1) tt e d)) (fun d => x1 (ix5 (0 : Fin 1) (0 : Fin 1) tt f' d)))

/-- The weights block the body leaves. -/
theorem out0_5_apply (x0 x1 x2 : Vec Ideal S1x1x8x256x64 .f32) (x3 : Vec Ideal S1x1x8x256x256 .i32) (u w : Fin 1)
    (tt : Fin 8) (e f : Fin 256) :
    out0_5 (F := Ideal) x0 x1 x2 x3 (ix5 u w tt e f) = weight (blockRow x0 x1 x3 tt e) f := by
  unfold out0_5
  rw [View.canon_unit_zero hz]
  simp only [View.ld_unit_zero (S := S1x1x8x256x64) hz, View.ld_unit_zero (S := S1x1x8x256x256) hz]
  exact (Block.pay1_apply _ u w tt e f).trans (Block.pay4_apply x0 x1 x3 tt e f)

/-- The output block the body leaves. -/
theorem out0_4_apply (x0 x1 x2 : Vec Ideal S1x1x8x256x64 .f32) (x3 : Vec Ideal S1x1x8x256x256 .i32) (u w : Fin 1)
    (tt : Fin 8) (e : Fin 256) (d : Fin 64) :
    out0_4 (F := Ideal) x0 x1 x2 x3 (ix5 u w tt e d)
      = ∑ f : Fin 256, weight (blockRow x0 x1 x3 tt e) f * x2 (ix5 (0 : Fin 1) (0 : Fin 1) tt f d) := by
  unfold out0_4
  rw [View.canon_unit_zero hz]
  simp only [View.ld_unit_zero (S := S1x1x8x256x64) hz, View.ld_unit_zero (S := S1x1x8x256x256) hz]
  refine (Block.pay2_apply _ _ u w tt e d).trans (Finset.sum_congr rfl fun f _ => ?_)
  rw [Block.pay4_apply x0 x1 x3 tt e f, Block.pay3_apply x2 tt f d]
  rfl

/-! ## The index maps, decided over the grid -/

/-- Every window's block index at a point, relative to the weights window's: the same slice block, the mask at head 0,
    the two trailing axes whole. -/
theorem idx_facts : ∀ t : Fin cfg0.N,
    (win0_0.index t (0 : Fin 5) = win0_5.index t (0 : Fin 5) ∧ win0_0.index t (1 : Fin 5) = win0_5.index t (1 : Fin 5)
      ∧ win0_0.index t (2 : Fin 5) = win0_5.index t (2 : Fin 5) ∧ win0_0.index t (3 : Fin 5) = 0 ∧ win0_0.index t (4 : Fin 5) = 0)
    ∧ (win0_1.index t (0 : Fin 5) = win0_5.index t (0 : Fin 5) ∧ win0_1.index t (1 : Fin 5) = win0_5.index t (1 : Fin 5)
      ∧ win0_1.index t (2 : Fin 5) = win0_5.index t (2 : Fin 5) ∧ win0_1.index t (3 : Fin 5) = 0 ∧ win0_1.index t (4 : Fin 5) = 0)
    ∧ (win0_2.index t (0 : Fin 5) = win0_5.index t (0 : Fin 5) ∧ win0_2.index t (1 : Fin 5) = win0_5.index t (1 : Fin 5)
      ∧ win0_2.index t (2 : Fin 5) = win0_5.index t (2 : Fin 5) ∧ win0_2.index t (3 : Fin 5) = 0 ∧ win0_2.index t (4 : Fin 5) = 0)
    ∧ (win0_3.index t (0 : Fin 5) = win0_5.index t (0 : Fin 5) ∧ win0_3.index t (1 : Fin 5) = 0
      ∧ win0_3.index t (2 : Fin 5) = win0_5.index t (2 : Fin 5) ∧ win0_3.index t (3 : Fin 5) = 0 ∧ win0_3.index t (4 : Fin 5) = 0)
    ∧ (win0_4.index t (0 : Fin 5) = win0_5.index t (0 : Fin 5) ∧ win0_4.index t (1 : Fin 5) = win0_5.index t (1 : Fin 5)
      ∧ win0_4.index t (2 : Fin 5) = win0_5.index t (2 : Fin 5) ∧ win0_4.index t (3 : Fin 5) = 0 ∧ win0_4.index t (4 : Fin 5) = 0)
    ∧ (win0_5.index t (0 : Fin 5) ≤ 3 ∧ win0_5.index t (1 : Fin 5) ≤ 7 ∧ win0_5.index t (2 : Fin 5) ≤ 7
      ∧ win0_5.index t (3 : Fin 5) = 0 ∧ win0_5.index t (4 : Fin 5) = 0) :=
  (by decide +kernel : ∀ t : Fin grid0.N, _)

/-- Every block of the weights array is some point's. -/
theorem idx_onto : ∀ (q0 : Fin 4) (q1 : Fin 8) (q2 : Fin 8), ∃ t : Fin cfg0.N,
    win0_5.index t (0 : Fin 5) = q0.val ∧ win0_5.index t (1 : Fin 5) = q1.val ∧ win0_5.index t (2 : Fin 5) = q2.val :=
  (by decide +kernel : ∀ (q0 : Fin 4) (q1 : Fin 8) (q2 : Fin 8), ∃ t : Fin grid0.N,
    win0_5.index t (0 : Fin 5) = q0.val ∧ win0_5.index t (1 : Fin 5) = q1.val ∧ win0_5.index t (2 : Fin 5) = q2.val)

variable (m : (ℓ : Loc nD τ sig) → Buf (Elt Ideal) ℓ) (ρ : Dev nD → PrngReg)

/-! ## A point's blocks are the specification's rows -/

/-- The row of scores read off point `t`'s blocks is the specification's row of the array entry the block entry is:
    slice `(b, h, T)` with `b, h` the point's block indices and `T = 8 ·` (its slice block) `+ tt`. -/
theorem blockRow_eq (c : Dev nD) (t : Fin cfg0.N) (tt : Fin 8) (e : Fin 256) (b : Fin 4) (h : Fin 8) (T : Fin 64)
    (hb : b.val = win0_5.index t (0 : Fin 5)) (hh : h.val = win0_5.index t (1 : Fin 5))
    (hT : T.val = win0_5.index t (2 : Fin 5) * 8 + tt.val) :
    blockRow (iblk m c 0 t) (iblk m c 1 t) (iblk m c 3 t) tt e
      = scoreRow (V m c main_arg0) (V m c main_arg1) (V m c main_arg3) b h T e := by
  obtain ⟨⟨a0, a1, a2, a3, a4⟩, ⟨b0, b1, b2, b3, b4⟩, -, ⟨d0, d1, d2, d3, d4⟩, -, -⟩ := idx_facts t
  funext f'
  unfold blockRow scoreRow
  refine congrArg₂ masked ?_ (congrArg₂ dotScaled (funext fun d => ?_) (funext fun d => ?_))
  · show V m c main_arg3 (((cfg0.win 3).blk t).view.emb (ix5 (0 : Fin 1) (0 : Fin 1) tt e f')) = V m c main_arg3 (ix5 b (0 : Fin 1) T e f')
    refine congrArg (V m c main_arg3) (funext fun a => Fin.ext ?_)
    match a with
    | ⟨0, _⟩ => show win0_3.index t (0 : Fin 5) * 1 + 1 * 0 = b.val; omega
    | ⟨1, _⟩ => show win0_3.index t (1 : Fin 5) * 1 + 1 * 0 = 0; omega
    | ⟨2, _⟩ => show win0_3.index t (2 : Fin 5) * 8 + 1 * tt.val = T.val; omega
    | ⟨3, _⟩ => show win0_3.index t (3 : Fin 5) * 256 + 1 * e.val = e.val; omega
    | ⟨4, _⟩ => show win0_3.index t (4 : Fin 5) * 256 + 1 * f'.val = f'.val; omega
  · show V m c main_arg0 (((cfg0.win 0).blk t).view.emb (ix5 (0 : Fin 1) (0 : Fin 1) tt e d)) = V m c main_arg0 (ix5 b h T e d)
    refine congrArg (V m c main_arg0) (funext fun a => Fin.ext ?_)
    match a with
    | ⟨0, _⟩ => show win0_0.index t (0 : Fin 5) * 1 + 1 * 0 = b.val; omega
    | ⟨1, _⟩ => show win0_0.index t (1 : Fin 5) * 1 + 1 * 0 = h.val; omega
    | ⟨2, _⟩ => show win0_0.index t (2 : Fin 5) * 8 + 1 * tt.val = T.val; omega
    | ⟨3, _⟩ => show win0_0.index t (3 : Fin 5) * 256 + 1 * e.val = e.val; omega
    | ⟨4, _⟩ => show win0_0.index t (4 : Fin 5) * 64 + 1 * d.val = d.val; omega
  · show V m c main_arg1 (((cfg0.win 1).blk t).view.emb (ix5 (0 : Fin 1) (0 : Fin 1) tt f' d)) = V m c main_arg1 (ix5 b h T f' d)
    refine congrArg (V m c main_arg1) (funext fun a => Fin.ext ?_)
    match a with
    | ⟨0, _⟩ => show win0_1.index t (0 : Fin 5) * 1 + 1 * 0 = b.val; omega
    | ⟨1, _⟩ => show win0_1.index t (1 : Fin 5) * 1 + 1 * 0 = h.val; omega
    | ⟨2, _⟩ => show win0_1.index t (2 : Fin 5) * 8 + 1 * tt.val = T.val; omega
    | ⟨3, _⟩ => show win0_1.index t (3 : Fin 5) * 256 + 1 * f'.val = f'.val; omega
    | ⟨4, _⟩ => show win0_1.index t (4 : Fin 5) * 64 + 1 * d.val = d.val; omega

/-- The value block of point `t`, entry `(0, 0, tt, f, d)`, is the value array's entry `(b, h, T, f, d)`. -/
theorem blockV_eq (c : Dev nD) (t : Fin cfg0.N) (tt : Fin 8) (f : Fin 256) (d : Fin 64) (b : Fin 4) (h : Fin 8) (T : Fin 64)
    (hb : b.val = win0_5.index t (0 : Fin 5)) (hh : h.val = win0_5.index t (1 : Fin 5))
    (hT : T.val = win0_5.index t (2 : Fin 5) * 8 + tt.val) :
    iblk m c 2 t (ix5 (0 : Fin 1) (0 : Fin 1) tt f d) = V m c main_arg2 (ix5 b h T f d) := by
  obtain ⟨-, -, ⟨c0, c1, c2, c3, c4⟩, -, -, -⟩ := idx_facts t
  show V m c main_arg2 (((cfg0.win 2).blk t).view.emb (ix5 (0 : Fin 1) (0 : Fin 1) tt f d)) = V m c main_arg2 (ix5 b h T f d)
  refine congrArg (V m c main_arg2) (funext fun a => Fin.ext ?_)
  match a with
  | ⟨0, _⟩ => show win0_2.index t (0 : Fin 5) * 1 + 1 * 0 = b.val; omega
  | ⟨1, _⟩ => show win0_2.index t (1 : Fin 5) * 1 + 1 * 0 = h.val; omega
  | ⟨2, _⟩ => show win0_2.index t (2 : Fin 5) * 8 + 1 * tt.val = T.val; omega
  | ⟨3, _⟩ => show win0_2.index t (3 : Fin 5) * 256 + 1 * f.val = f.val; omega
  | ⟨4, _⟩ => show win0_2.index t (4 : Fin 5) * 64 + 1 * d.val = d.val; omega

/-! ## What a point writes back -/

/-- Point `t` writes back block `t` of the specification's weights. -/
theorem flushed5_eq (c : Dev nD) (t : Fin cfg0.N) :
    (dats m 0 c).flushed 5 t
      = ((cfg0.win 5).blk t).view.read (Elt Ideal) (attn (V m c main_arg0) (V m c main_arg1) (V m c main_arg3)) := by
  rw [Value.flushed5]
  obtain ⟨-, -, -, -, -, ⟨f0, f1, f2, f3, f4⟩⟩ := idx_facts t
  refine funext fun (j : S1x1x8x256x256.Idx) => ?_
  obtain ⟨u, w, tt, e, f, rfl⟩ : ∃ (u w : Fin 1) (tt : Fin 8) (e f : Fin 256), j = ix5 u w tt e f :=
    ⟨j 0, j 1, j 2, j 3, j 4, eq_ix5 j⟩
  have hu : u.val < 1 := u.isLt
  have hw : w.val < 1 := w.isLt
  refine (out0_5_apply (iblk m c 0 t) (iblk m c 1 t) (iblk m c 2 t) (iblk m c 3 t) u w tt e f).trans ?_
  show _ = attnAt (V m c main_arg0) (V m c main_arg1) (V m c main_arg3) ((((cfg0.win 5).blk t).view.emb (ix5 u w tt e f)) 0) ((((cfg0.win 5).blk t).view.emb (ix5 u w tt e f)) 1) ((((cfg0.win 5).blk t).view.emb (ix5 u w tt e f)) 2) ((((cfg0.win 5).blk t).view.emb (ix5 u w tt e f)) 3) ((((cfg0.win 5).blk t).view.emb (ix5 u w tt e f)) 4)
  have he : (((cfg0.win 5).blk t).view.emb (ix5 u w tt e f)) 3 = e := Fin.ext (by
    show win0_5.index t (3 : Fin 5) * 256 + 1 * e.val = e.val; omega)
  have hf : (((cfg0.win 5).blk t).view.emb (ix5 u w tt e f)) 4 = f := Fin.ext (by
    show win0_5.index t (4 : Fin 5) * 256 + 1 * f.val = f.val; omega)
  rw [he, hf]
  unfold attnAt
  refine congrArg (fun s => weight s f) (blockRow_eq m c t tt e _ _ _ ?_ ?_ ?_)
  · show win0_5.index t (0 : Fin 5) * 1 + 1 * u.val = win0_5.index t (0 : Fin 5); omega
  · show win0_5.index t (1 : Fin 5) * 1 + 1 * w.val = win0_5.index t (1 : Fin 5); omega
  · show win0_5.index t (2 : Fin 5) * 8 + 1 * tt.val = win0_5.index t (2 : Fin 5) * 8 + tt.val; omega

/-- Point `t` writes back block `t` of the specification's output. -/
theorem flushed4_eq (c : Dev nD) (t : Fin cfg0.N) :
    (dats m 0 c).flushed 4 t
      = ((cfg0.win 4).blk t).view.read (Elt Ideal)
          (out (V m c main_arg0) (V m c main_arg1) (V m c main_arg2) (V m c main_arg3)) := by
  rw [Value.flushed4]
  obtain ⟨-, -, -, -, ⟨e0, e1, e2, e3, e4⟩, ⟨f0, f1, f2, f3, f4⟩⟩ := idx_facts t
  refine funext fun (j : S1x1x8x256x64.Idx) => ?_
  obtain ⟨u, w, tt, e, d, rfl⟩ : ∃ (u w : Fin 1) (tt : Fin 8) (e : Fin 256) (d : Fin 64), j = ix5 u w tt e d :=
    ⟨j 0, j 1, j 2, j 3, j 4, eq_ix5 j⟩
  have hu : u.val < 1 := u.isLt
  have hw : w.val < 1 := w.isLt
  refine (out0_4_apply (iblk m c 0 t) (iblk m c 1 t) (iblk m c 2 t) (iblk m c 3 t) u w tt e d).trans ?_
  show _ = outAt (V m c main_arg0) (V m c main_arg1) (V m c main_arg2) (V m c main_arg3) ((((cfg0.win 4).blk t).view.emb (ix5 u w tt e d)) 0) ((((cfg0.win 4).blk t).view.emb (ix5 u w tt e d)) 1) ((((cfg0.win 4).blk t).view.emb (ix5 u w tt e d)) 2) ((((cfg0.win 4).blk t).view.emb (ix5 u w tt e d)) 3) ((((cfg0.win 4).blk t).view.emb (ix5 u w tt e d)) 4)
  have hb : (((cfg0.win 4).blk t).view.emb (ix5 u w tt e d) 0).val = win0_5.index t (0 : Fin 5) := by
    show win0_4.index t (0 : Fin 5) * 1 + 1 * u.val = win0_5.index t (0 : Fin 5); omega
  have hh : (((cfg0.win 4).blk t).view.emb (ix5 u w tt e d) 1).val = win0_5.index t (1 : Fin 5) := by
    show win0_4.index t (1 : Fin 5) * 1 + 1 * w.val = win0_5.index t (1 : Fin 5); omega
  have hT : (((cfg0.win 4).blk t).view.emb (ix5 u w tt e d) 2).val = win0_5.index t (2 : Fin 5) * 8 + tt.val := by
    show win0_4.index t (2 : Fin 5) * 8 + 1 * tt.val = win0_5.index t (2 : Fin 5) * 8 + tt.val; omega
  have he : ((cfg0.win 4).blk t).view.emb (ix5 u w tt e d) 3 = e := Fin.ext (by
    show win0_4.index t (3 : Fin 5) * 256 + 1 * e.val = e.val; omega)
  have hd : ((cfg0.win 4).blk t).view.emb (ix5 u w tt e d) 4 = d := Fin.ext (by
    show win0_4.index t (4 : Fin 5) * 64 + 1 * d.val = d.val; omega)
  rw [he, hd]
  unfold outAt attnAt
  refine Finset.sum_congr rfl fun f _ => congrArg₂ (· * ·) (congrArg (fun s => weight s f) ?_) ?_
  · exact blockRow_eq m c t tt e _ _ _ hb hh hT
  · exact blockV_eq m c t tt f d _ _ _ hb hh hT

/-! ## The blocks tile both arrays -/

theorem mem_blk5 (t : Fin cfg0.N) (i : S4x8x64x256x256.Idx) :
    i ∈ ((cfg0.win 5).blk t).view.set ↔ ∀ a : Fin 5, win0_5.index t a * S1x1x8x256x256.size a ≤ (i a).val
      ∧ (i a).val < win0_5.index t a * S1x1x8x256x256.size a + S1x1x8x256x256.size a := by
  show i ∈ ((View.whole main_v0_1).slice (win0_5.rect t)).set ↔ _
  rw [View.set_slice_whole, Rect.mem_set_unit]
  exact Iff.rfl

theorem mem_blk4 (t : Fin cfg0.N) (i : S4x8x64x256x64.Idx) :
    i ∈ ((cfg0.win 4).blk t).view.set ↔ ∀ a : Fin 5, win0_4.index t a * S1x1x8x256x64.size a ≤ (i a).val
      ∧ (i a).val < win0_4.index t a * S1x1x8x256x64.size a + S1x1x8x256x64.size a := by
  show i ∈ ((View.whole main_v0_0).slice (win0_4.rect t)).set ↔ _
  rw [View.set_slice_whole, Rect.mem_set_unit]
  exact Iff.rfl

/-- Every entry of the weights array lies in some point's block: the point of its `(b, h, T / 8)`. -/
theorem cover5 (i : S4x8x64x256x256.Idx) :
    ∃ t : Fin cfg0.N, (cfg0.win 5).flush t = true ∧ i ∈ ((cfg0.win 5).blk t).view.set := by
  have h0 : (i 0).val < 4 := (i 0).isLt
  have h1 : (i 1).val < 8 := (i 1).isLt
  have h2 : (i 2).val < 64 := (i 2).isLt
  have h3 : (i 3).val < 256 := (i 3).isLt
  have h4 : (i 4).val < 256 := (i 4).isLt
  obtain ⟨t, q0, q1, q2⟩ := idx_onto ⟨(i 0).val, h0⟩ ⟨(i 1).val, h1⟩ ⟨(i 2).val / 8, by omega⟩
  have q0' : win0_5.index t (0 : Fin 5) = (i 0).val := q0
  have q1' : win0_5.index t (1 : Fin 5) = (i 1).val := q1
  have q2' : win0_5.index t (2 : Fin 5) = (i 2).val / 8 := q2
  obtain ⟨-, -, -, -, -, ⟨f0, f1, f2, f3, f4⟩⟩ := idx_facts t
  refine ⟨t, flush0_5 t, ?_⟩
  rw [mem_blk5]
  intro a
  match a with
  | ⟨0, _⟩ => show win0_5.index t (0 : Fin 5) * 1 ≤ (i 0).val ∧ (i 0).val < win0_5.index t (0 : Fin 5) * 1 + 1; omega
  | ⟨1, _⟩ => show win0_5.index t (1 : Fin 5) * 1 ≤ (i 1).val ∧ (i 1).val < win0_5.index t (1 : Fin 5) * 1 + 1; omega
  | ⟨2, _⟩ => show win0_5.index t (2 : Fin 5) * 8 ≤ (i 2).val ∧ (i 2).val < win0_5.index t (2 : Fin 5) * 8 + 8; omega
  | ⟨3, _⟩ => show win0_5.index t (3 : Fin 5) * 256 ≤ (i 3).val ∧ (i 3).val < win0_5.index t (3 : Fin 5) * 256 + 256; omega
  | ⟨4, _⟩ => show win0_5.index t (4 : Fin 5) * 256 ≤ (i 4).val ∧ (i 4).val < win0_5.index t (4 : Fin 5) * 256 + 256; omega

/-- Every entry of the output array lies in some point's block. -/
theorem cover4 (i : S4x8x64x256x64.Idx) :
    ∃ t : Fin cfg0.N, (cfg0.win 4).flush t = true ∧ i ∈ ((cfg0.win 4).blk t).view.set := by
  have h0 : (i 0).val < 4 := (i 0).isLt
  have h1 : (i 1).val < 8 := (i 1).isLt
  have h2 : (i 2).val < 64 := (i 2).isLt
  have h3 : (i 3).val < 256 := (i 3).isLt
  have h4 : (i 4).val < 64 := (i 4).isLt
  obtain ⟨t, q0, q1, q2⟩ := idx_onto ⟨(i 0).val, h0⟩ ⟨(i 1).val, h1⟩ ⟨(i 2).val / 8, by omega⟩
  have q0' : win0_5.index t (0 : Fin 5) = (i 0).val := q0
  have q1' : win0_5.index t (1 : Fin 5) = (i 1).val := q1
  have q2' : win0_5.index t (2 : Fin 5) = (i 2).val / 8 := q2
  obtain ⟨-, -, -, -, ⟨e0, e1, e2, e3, e4⟩, -⟩ := idx_facts t
  refine ⟨t, flush0_4 t, ?_⟩
  rw [mem_blk4]
  intro a
  match a with
  | ⟨0, _⟩ => show win0_4.index t (0 : Fin 5) * 1 ≤ (i 0).val ∧ (i 0).val < win0_4.index t (0 : Fin 5) * 1 + 1; omega
  | ⟨1, _⟩ => show win0_4.index t (1 : Fin 5) * 1 ≤ (i 1).val ∧ (i 1).val < win0_4.index t (1 : Fin 5) * 1 + 1; omega
  | ⟨2, _⟩ => show win0_4.index t (2 : Fin 5) * 8 ≤ (i 2).val ∧ (i 2).val < win0_4.index t (2 : Fin 5) * 8 + 8; omega
  | ⟨3, _⟩ => show win0_4.index t (3 : Fin 5) * 256 ≤ (i 3).val ∧ (i 3).val < win0_4.index t (3 : Fin 5) * 256 + 256; omega
  | ⟨4, _⟩ => show win0_4.index t (4 : Fin 5) * 64 ≤ (i 4).val ∧ (i 4).val < win0_4.index t (4 : Fin 5) * 64 + 64; omega

/-! ## The two arrays after the run -/

/-- The weights array ends holding the specification's weights of the argument arrays. -/
theorem final5 (c : Dev nD) :
    (dats m 0 c).arrAt 5 cfg0.N = attn (V m c main_arg0) (V m c main_arg1) (V m c main_arg3) :=
  (dats m 0 c).arrAt_eq_of_cover 5 _ (fun t _ => flushed5_eq m c t) cover5

/-- The output array ends holding the specification's output of the argument arrays. -/
theorem final4 (c : Dev nD) :
    (dats m 0 c).arrAt 4 cfg0.N = out (V m c main_arg0) (V m c main_arg1) (V m c main_arg2) (V m c main_arg3) :=
  (dats m 0 c).arrAt_eq_of_cover 4 _ (fun t _ => flushed4_eq m c t) cover4

/-- The kernel's run with both result arrays at the specification's functions of the argument arrays. -/
theorem run : θ_run defs (onTc (τ := τ) (main (F := Ideal))) ⟨m, fun _ => 0, ρ⟩ fun r => ∀ c : Dev nD,
      r.2.mem ((c : Thread nD τ).loc main_v0_0)
        = out (m ((c : Thread nD τ).loc main_arg0)) (m ((c : Thread nD τ).loc main_arg1))
            (m ((c : Thread nD τ).loc main_arg2)) (m ((c : Thread nD τ).loc main_arg3))
      ∧ r.2.mem ((c : Thread nD τ).loc main_v0_1)
        = attn (m ((c : Thread nD τ).loc main_arg0)) (m ((c : Thread nD τ).loc main_arg1))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Arr

end
-- ==== Proof.ScoreForms.lean ====
/-
  The two arrangements of a row of masked scores agree on real queries and keys.
-/
import proofs.«170571_j12558484374015_2_alg».proof.Proof.AttentionSpec

noncomputable section

namespace Cert.Attention

open Idealize.ShloMosaic Idealize.ShloMosaic.ValueIdx

/-- The row of masked scores with the queries divided by 8 BEFORE the inner product. -/
def scoreRowDiv (Q K : SQ.Idx → EReal) (Mk : SM.Idx → BitVec 32) (b : Fin 4) (h : Fin 8) (t : Fin 64) (e : Fin 256) :
    Fin 256 → EReal := fun f =>
  masked (Mk (ix5 b (0 : Fin 1) t e f)) (dotDivided (fun d => Q (ix5 b h t e d)) (fun d => K (ix5 b h t f d)))

/-- With every query and key entry real, dividing the queries first gives the same row as scaling the inner product. -/
theorem scoreRowDiv_eq (Q K : SQ.Idx → EReal) (Mk : SM.Idx → BitVec 32) (hQ : ∀ i, ∃ r : ℝ, Q i = (r : EReal))
    (hK : ∀ i, ∃ r : ℝ, K i = (r : EReal)) (b : Fin 4) (h : Fin 8) (t : Fin 64) (e : Fin 256) :
    scoreRowDiv Q K Mk b h t e = scoreRow Q K Mk b h t e :=
  funext fun f => congrArg (masked (Mk (ix5 b (0 : Fin 1) t e f)))
    (dotScaled_eq_dotDivided _ _ (fun d => hQ _) (fun d => hK _)).symm

end Cert.Attention

end
-- ==== Proof.LibHostLastMax5.lean ====
/-
  The host's maximum over the LAST axis of a rank-5 array, read at an index, on the extended reals.
-/
import Idealize.ShloMosaic.Lib.ValueIdx
import Idealize.ShloMosaic.PureOps.Ideal.Laws

noncomputable section

namespace Idealize.ShloMosaic.HostLastMax5

open Idealize.ShloMosaic Idealize.ShloMosaic.ValueIdx

variable {n0 n1 n2 n3 n4 : ℕ}

/-- The host's maximum of an `[n0, n1, n2, n3, n4]` array over its last axis from an initial value, at `(a, b, c, d)`, is
    the fold of `max` from that value over the last coordinate. -/
theorem apply {u : Shape} (x : FVec Ideal ⟨5, ![n0, n1, n2, n3, n4]⟩ .f32) (init : u.Idx → EReal)
    (h' : (⟨5, ![n0, n1, n2, n3, n4]⟩ : Shape).ReducesTo [4] ⟨4, ![n0, n1, n2, n3]⟩)
    (h : (⟨5, ![n0, n1, n2, n3, n4]⟩ : Shape).Reduces [4] ⟨4, ![n0, n1, n2, n3]⟩)
    (hu : 0 < u.numel) (a : Fin n0) (b : Fin n1) (c : Fin n2) (d : Fin n3) :
    Host.reduce (FloatOps.maximumf (F := Ideal) (φ := .f32)) x init h' hu (ix4 a b c d)
      = (Finset.univ : Finset (Fin n4)).fold max (init (Shape.Idx.first hu)) (fun k => x (ix5 a b c d k)) := by
  refine (Host.reduce_eq_fold_single (FloatOps.maximumf (F := Ideal) (φ := .f32)) x init h' h hu (ix4 a b c d)).trans ?_
  refine congrArg (fun f => (Finset.univ : Finset (Fin n4)).fold max (init (Shape.Idx.first hu)) f) (funext fun k => ?_)
  exact congrArg x (funext fun ax => Fin.ext (by
    match ax with
    | ⟨0, _⟩ => rfl
    | ⟨1, _⟩ => rfl
    | ⟨2, _⟩ => rfl
    | ⟨3, _⟩ => rfl
    | ⟨4, _⟩ => rfl))

end Idealize.ShloMosaic.HostLastMax5

end
-- ==== Proof.RefRead.lean ====
/-
  The reference program's two results, read entry by entry.

  The reference divides the queries by 8, takes the batched inner products against the keys, fills the masked scores,
  and applies the shifted softmax along the last axis (the row maximum once more joined with −∞, which changes nothing);
  the output is the batched product of the weights with the values.  Entry by entry these are the weights and the output
  of the specification, with the row of scores in the "divide first" arrangement.
-/
import proofs.«170571_j12558484374015_2_alg».proof.Proof.Gen.ReferenceIdeal.Read
import proofs.«170571_j12558484374015_2_alg».proof.Proof.ScoreForms
import proofs.«170571_j12558484374015_2_alg».proof.Proof.LibHostLastMax5

noncomputable section

namespace Cert.ReferenceIdeal.RefRead

open Cert.ReferenceIdeal Cert.ReferenceIdeal.Gen Cert.ReferenceIdeal.Read Idealize.ShloMosaic Idealize.ShloMosaic.ValueIdx
  Cert.Attention

variable (Q K V : (⟨S4x8x64x256x64, .f32⟩ : BufTy).Contents (Elt Ideal))
  (Mk : (⟨S4x1x64x256x256, .i32⟩ : BufTy).Contents (Elt Ideal))

/-- The masked score of query `e` against key `f` in slice `(b, h, t)`. -/
theorem score_apply (b : Fin 4) (h : Fin 8) (t : Fin 64) (e f : Fin 256) :
    val_main_v5 (F := Ideal) Q K Mk (ix5 b h t e f) = scoreRowDiv Q K Mk b h t e f := by
  have hi : idx_main_call0_v1 (ix5 b h t e f) = ix5 b (0 : Fin 1) t e f := funext fun a => Fin.ext (by
      match a with
      | ⟨0, _⟩ => rfl
      | ⟨1, _⟩ => rfl
      | ⟨2, _⟩ => rfl
      | ⟨3, _⟩ => rfl
      | ⟨4, _⟩ => rfl)
  have hl : ∀ k : Fin 64, lidx_main_v2 (ix5 b h t e f) k = ix5 b h t e k := fun k => funext fun a => Fin.ext (by
      match a with
      | ⟨0, _⟩ => rfl
      | ⟨1, _⟩ => rfl
      | ⟨2, _⟩ => rfl
      | ⟨3, _⟩ => rfl
      | ⟨4, _⟩ => rfl)
  have hr : ∀ k : Fin 64, ridx_main_v2 (ix5 b h t e f) k = ix5 b h t f k := fun k => funext fun a => Fin.ext (by
      match a with
      | ⟨0, _⟩ => rfl
      | ⟨1, _⟩ => rfl
      | ⟨2, _⟩ => rfl
      | ⟨3, _⟩ => rfl
      | ⟨4, _⟩ => rfl)
  rw [val_main_v5_apply, val_main_call0_v1_apply, val_main_v4_apply, val_main_v3_apply, val_main_c_apply,
    val_main_call0_v2_apply, val_main_call0_v0_apply, val_main_cst_0_apply, val_main_v2_apply]
  simp only [hi, hl, hr, val_main_v1_apply, val_main_v0_apply, val_main_cst_apply]
  rfl

/-- The row maximum the reference subtracts: the fold of `max` from `⊥` over the row of scores. -/
theorem rowMax_apply (b : Fin 4) (h : Fin 8) (t : Fin 64) (e : Fin 256) :
    val_main_v8 (F := Ideal) Q K Mk (ix4 b h t e)
      = (Finset.univ : Finset (Fin 256)).fold max ⊥ (scoreRowDiv Q K Mk b h t e) := by
  rw [val_main_v8_apply, val_main_v7_apply, val_main_cst_2_apply]
  unfold val_main_v6
  rw [HostLastMax5.apply (val_main_v5 (F := Ideal) Q K Mk) (val_main_cst_1 (F := Ideal))
    reducesTo_S4x8x64x256x256_S4x8x64x256_d4 (by decide) h_S_ b h t e, val_main_cst_1_apply]
  show max (Ideal.ofBits .f32 0xFF800000#32) ((Finset.univ : Finset (Fin 256)).fold max (Ideal.ofBits .f32 0xFF800000#32) _) = _
  rw [ofBits_neg_inf, max_eq_right bot_le]
  exact congrArg (fun s => (Finset.univ : Finset (Fin 256)).fold max ⊥ s) (funext fun f => score_apply Q K Mk b h t e f)

/-- The reference's weights, entry by entry. -/
theorem weight_apply (b : Fin 4) (h : Fin 8) (t : Fin 64) (e f : Fin 256) :
    val_main_v16 (F := Ideal) Q K Mk (ix5 b h t e f) = weight (scoreRowDiv Q K Mk b h t e) f := by
  have hm : ∀ k : Fin 256, val_main_v10 (F := Ideal) Q K Mk (ix5 b h t e k)
      = (Finset.univ : Finset (Fin 256)).fold max ⊥ (scoreRowDiv Q K Mk b h t e) := fun k => by
    rw [val_main_v10_apply, val_main_v9_apply]
    exact (congrArg (val_main_v8 (F := Ideal) Q K Mk)
      (show idx_main_v9 (idx_main_v10 (ix5 b h t e k)) = ix4 b h t e from funext fun a => Fin.ext (by
      match a with
      | ⟨0, _⟩ => rfl
      | ⟨1, _⟩ => rfl
      | ⟨2, _⟩ => rfl
      | ⟨3, _⟩ => rfl))).trans (rowMax_apply Q K Mk b h t e)
  have hx : ∀ k : Fin 256, val_main_v12 (F := Ideal) Q K Mk (ix5 b h t e k)
      = Ideal.exp (scoreRowDiv Q K Mk b h t e k - (Finset.univ : Finset (Fin 256)).fold max ⊥ (scoreRowDiv Q K Mk b h t e)) := fun k => by
    rw [val_main_v12_apply, val_main_v11_apply, hm k, score_apply]
    rfl
  have h4 : idx_main_v14 (idx_main_v15 (ix5 b h t e f)) = ix4 b h t e := funext fun a => Fin.ext (by
      match a with
      | ⟨0, _⟩ => rfl
      | ⟨1, _⟩ => rfl
      | ⟨2, _⟩ => rfl
      | ⟨3, _⟩ => rfl)
  have h13 : ∀ k : Fin 256, idx_main_v13 (ix4 b h t e) k = ix5 b h t e k := fun k => funext fun a => Fin.ext (by
      match a with
      | ⟨0, _⟩ => rfl
      | ⟨1, _⟩ => rfl
      | ⟨2, _⟩ => rfl
      | ⟨3, _⟩ => rfl
      | ⟨4, _⟩ => rfl)
  rw [val_main_v16_apply, val_main_v15_apply, val_main_v14_apply, h4, val_main_v13_apply, val_main_cst_3_apply, hx f]
  simp only [h13, hx]
  show Ideal.div _ (Ideal.ofBits .f32 0x00000000#32 + _) = _
  rw [ofBits_zero, zero_add]
  rfl

/-- The reference's output, entry by entry. -/
theorem out_apply (b : Fin 4) (h : Fin 8) (t : Fin 64) (e : Fin 256) (d : Fin 64) :
    val_main_v17 (F := Ideal) Q K V Mk (ix5 b h t e d)
      = ∑ f : Fin 256, weight (scoreRowDiv Q K Mk b h t e) f * V (ix5 b h t f d) := by
  have hl : ∀ k : Fin 256, lidx_main_v17 (ix5 b h t e d) k = ix5 b h t e k := fun k => funext fun a => Fin.ext (by
      match a with
      | ⟨0, _⟩ => rfl
      | ⟨1, _⟩ => rfl
      | ⟨2, _⟩ => rfl
      | ⟨3, _⟩ => rfl
      | ⟨4, _⟩ => rfl)
  have hr : ∀ k : Fin 256, ridx_main_v17 (ix5 b h t e d) k = ix5 b h t k d := fun k => funext fun a => Fin.ext (by
      match a with
      | ⟨0, _⟩ => rfl
      | ⟨1, _⟩ => rfl
      | ⟨2, _⟩ => rfl
      | ⟨3, _⟩ => rfl
      | ⟨4, _⟩ => rfl)
  rw [val_main_v17_apply]
  simp only [hl, hr, weight_apply]

/-- With real queries and keys the reference's weights are the specification's. -/
theorem attn_eq (hQ : ∀ i, ∃ r : ℝ, Q i = (r : EReal)) (hK : ∀ i, ∃ r : ℝ, K i = (r : EReal)) :
    val_main_v16 (F := Ideal) Q K Mk = attn Q K Mk := by
  funext i
  obtain ⟨b, h, t, e, f, rfl⟩ : ∃ (b : Fin 4) (h : Fin 8) (t : Fin 64) (e f : Fin 256), i = ix5 b h t e f :=
    ⟨i 0, i 1, i 2, i 3, i 4, eq_ix5 i⟩
  rw [weight_apply, scoreRowDiv_eq Q K Mk hQ hK]
  rfl

/-- With real queries and keys the reference's output is the specification's. -/
theorem out_eq (hQ : ∀ i, ∃ r : ℝ, Q i = (r : EReal)) (hK : ∀ i, ∃ r : ℝ, K i = (r : EReal)) :
    val_main_v17 (F := Ideal) Q K V Mk = out Q K V Mk := by
  funext i
  obtain ⟨b, h, t, e, d, rfl⟩ : ∃ (b : Fin 4) (h : Fin 8) (t : Fin 64) (e : Fin 256) (d : Fin 64), i = ix5 b h t e d :=
    ⟨i 0, i 1, i 2, i 3, i 4, eq_ix5 i⟩
  rw [out_apply, scoreRowDiv_eq Q K Mk hQ hK]
  rfl

end Cert.ReferenceIdeal.RefRead

end
-- ==== Proof.Finite.lean ====
/-
  The precondition "every float input is finite" gives real entries.

  The precondition is the conjunction of three tests, one per float argument, each the conjunction over all entries of
  `|x| < +∞`.  An extended real whose absolute value `max x (−x)` is below `⊤` is neither `⊥` nor `⊤`, hence a real.
-/
import proofs.«170571_j12558484374015_2_alg».proof.Pre_finite_inputs
import proofs.«170571_j12558484374015_2_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

namespace Cert.Finite

open Idealize.ShloMosaic Cert.Pre_finite_inputs

instance : Subsingleton S_.Idx := ⟨fun a b => funext fun d => d.elim0⟩

/-- An extended real whose absolute value is below the word of `+∞` is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  induction x with
  | bot => simp [Ideal.cmp] at h
  | coe r => exact ⟨r, rfl⟩
  | top => simp [Ideal.cmp] at h

/-- Under the precondition the first two float arguments (the queries and the keys) have real entries. -/
theorem real_of_pre (a0 a1 a2 : FVec Ideal S4x8x64x256x64 .f32) (a3 : IVec S4x1x64x256x256 32)
    (h : Cert.Pre_finite_inputs.fn (F := Ideal) a0 a1 a2 a3 = fun _ => 1#1) :
    (∀ i, ∃ r : ℝ, a0 i = (r : EReal)) ∧ (∀ i, ∃ r : ℝ, a1 i = (r : EReal)) := by
  have h1 := congrFun h ValueIdx.ix0
  dsimp only [Cert.Pre_finite_inputs.fn] at h1
  obtain ⟨h01, -⟩ := IntOp.andi_eq_one.1 h1
  obtain ⟨h0, h1'⟩ := IntOp.andi_eq_one.1 h01
  refine ⟨fun i => real_of_abs_lt _ ?_, fun i => real_of_abs_lt _ ?_⟩
  · exact Host.reduce_andi_all _ _ _ _ _ h0 i
  · exact Host.reduce_andi_all _ _ _ _ _ h1' i

end Cert.Finite

end
-- ==== Proof.lean ====
/-
  Masked scaled dot-product attention: a tiled kernel against the plain formulation.

  Both programs take queries, keys and values of shape [4, 8, 64, 256, 64] and an integer mask of shape
  [4, 1, 64, 256, 256], and return, for every slice (b, h, t), the softmax weights of the 256 queries over the 256 keys
  and the weighted sum of the value rows.  A score is the inner product of a query row and a key row divided by 8,
  replaced by the fill −1e30 where the mask entry is 0 (the mask is shared by the 8 heads).  The kernel walks a grid of
  4 × 8 × 8 points, each handling 8 slices, and scales the inner product after the sum; the reference divides the queries
  first.  On the extended reals the two scores agree when queries and keys are real (a real factor moves across a finite
  sum), which is what the precondition gives; everything after the scores — fill, row maximum, exponential, row sum,
  quotient, product with the values — is the same expression on both sides, so no further law is needed, and the
  values may be any extended reals.

  The modules: AttentionSpec (the function both programs compute, and the one law), ScoreForms (rows of scores in both
  arrangements), SoftmaxLane and KernelBlock (what the kernel body computes from one point's blocks), KernelArray (the
  blocks tile the two result arrays), RefRead (the reference, operation by operation), Finite (the precondition gives
  real entries).
-/
import proofs.«170571_j12558484374015_2_alg».proof.Defs
import proofs.«170571_j12558484374015_2_alg».proof.Proof.Gen.Kernel
import proofs.«170571_j12558484374015_2_alg».proof.Proof.Gen.Kernel.Frame
import proofs.«170571_j12558484374015_2_alg».proof.Proof.Gen.KernelIdeal
import proofs.«170571_j12558484374015_2_alg».proof.Proof.Gen.KernelIdeal.Frame
import proofs.«170571_j12558484374015_2_alg».proof.Proof.Gen.KernelIdeal.Value
import proofs.«170571_j12558484374015_2_alg».proof.Proof.Gen.ReferenceIdeal
import proofs.«170571_j12558484374015_2_alg».proof.Proof.Gen.ReferenceIdeal.Run
import proofs.«170571_j12558484374015_2_alg».proof.Proof.Gen.ReferenceIdeal.Read
import proofs.«170571_j12558484374015_2_alg».proof.Proof.Gen.Pre_finite_inputs
import proofs.«170571_j12558484374015_2_alg».proof.Proof.KernelArray
import proofs.«170571_j12558484374015_2_alg».proof.Proof.RefRead
import proofs.«170571_j12558484374015_2_alg».proof.Proof.Finite
import Idealize.ShloMosaic.Adequacy
import Idealize.ShloMosaic.Init

noncomputable section

namespace Cert.Proof

open Idealize.ShloMosaic Idealize.ShloMosaic.TcCoe Idealize.SL.Sem Cert.Attention

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the specification's output and weights of the (shared) arguments: the kernel by tiling,
    the reference operation by operation, the two arrangements of the scores joined by the realness of queries and keys. -/
theorem algebraic : Cert.algebraic_KernelIdeal_ReferenceIdeal := by
  intro m ρ m' ρ' hpre hagree
  have hfin := fun c => Cert.Finite.real_of_pre _ _ _ _ (hpre c)
  refine ⟨fun c => out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    Cert.KernelIdeal.Arr.run m ρ, ?_⟩
  refine (θ_run Cert.ReferenceIdeal.defs _ _).mono (fun _ h c => ⟨?_, ?_, (h c).2.2⟩)
    (Cert.ReferenceIdeal.Value.run (F := Ideal) m' ρ')
  · refine (h c).1.trans ((Cert.ReferenceIdeal.Read.val_main_v17_eq _ _ _ _).trans ?_)
    rw [(hagree c).1, (hagree c).2.1, (hagree c).2.2.1, (hagree c).2.2.2]
    exact Cert.ReferenceIdeal.RefRead.out_eq _ _ _ _ (hfin c).1 (hfin c).2
  · refine (h c).2.1.trans ((Cert.ReferenceIdeal.Read.val_main_v16_eq _ _ _).trans ?_)
    rw [(hagree c).1, (hagree c).2.1, (hagree c).2.2.2]
    exact Cert.ReferenceIdeal.RefRead.attn_eq _ _ _ (hfin c).1 (hfin c).2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
